-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x128x16 : Shape := ⟨3, ![2, 128, 16]⟩
abbrev S16 : Shape := ⟨1, ![16]⟩
abbrev S2x16x128 : Shape := ⟨3, ![2, 16, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x128x16 : S_.BroadcastsInDim S2x128x16 (![] : Fin 0 → Fin S2x128x16.rank)
  reducesTo_S2x128x16_S_d0_1_2 : S2x128x16.ReducesTo [0, 1, 2] S_
  bcast_S_S16 : S_.BroadcastsInDim S16 (![] : Fin 0 → Fin S16.rank)
  reducesTo_S16_S_d0 : S16.ReducesTo [0] S_
  bcast_S_S2x16x128 : S_.BroadcastsInDim S2x16x128 (![] : Fin 0 → Fin S2x16x128.rank)
  reducesTo_S2x16x128_S_d0_1_2 : S2x16x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S2x16x128 1) : IVec S_ 1 :=
  let main_c_5 : IVec S_ 1 := constantI S_ 1 1#1
  let main_v17 : IVec S_ 1 := (fun x v => Host.reduce IntOp.andi x v reducesTo_S2x16x128_S_d0_1_2 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S2x128x16 .f32) (main_arg3 : FVec F S16 .f32) (main_arg4 : FVec F S2x16x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2x128x16 .f32 := Host.absf main_arg2
  let main_cst_0 : FVec F S_ .f32 := constant S_ .f32 0x7F800000#32
  let main_v5 : FVec F S2x128x16 .f32 := broadcastInDim S2x128x16 ![] bcast_S_S2x128x16 main_cst_0
  let main_v6 : IVec S2x128x16 1 := cmpf .olt main_v4 main_v5
  let main_c_1 : IVec S_ 1 := constantI S_ 1 1#1
  let main_v7 : IVec S_ 1 := (fun x v => Host.reduce IntOp.andi x v reducesTo_S2x128x16_S_d0_1_2 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S2x16x128 .f32 := Host.absf main_arg4
  let main_cst_4 : FVec F S_ .f32 := constant S_ .f32 0x7F800000#32
  let main_v15 : FVec F S2x16x128 .f32 := broadcastInDim S2x16x128 ![] bcast_S_S2x16x128 main_cst_4
  let main_v16 : IVec S2x16x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S2x128x16 : Shape := ⟨3, ![2, 128, 16]⟩
abbrev S16 : Shape := ⟨1, ![16]⟩
abbrev S2x16x128 : Shape := ⟨3, ![2, 16, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x16 : Shape := ⟨2, ![1, 16]⟩
abbrev S100000x16 : Shape := ⟨2, ![100000, 16]⟩
abbrev S5000x128 : Shape := ⟨2, ![5000, 128]⟩
abbrev S5000x16 : Shape := ⟨2, ![5000, 16]⟩
abbrev S1x128x16 : Shape := ⟨3, ![1, 128, 16]⟩
abbrev S128x16 : Shape := ⟨2, ![128, 16]⟩
abbrev S1600000x16 : Shape := ⟨2, ![1600000, 16]⟩
abbrev S1x128 : Shape := ⟨2, ![1, 128]⟩
abbrev S1x16x128 : Shape := ⟨3, ![1, 16, 128]⟩
abbrev S16x128 : Shape := ⟨2, ![16, 128]⟩
abbrev S5000 : Shape := ⟨1, ![5000]⟩
abbrev S5000x1 : Shape := ⟨2, ![5000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x128x16, .f32⟩
  | .hbm, ⟨3, _⟩ => ⟨S16, .f32⟩
  | .hbm, ⟨4, _⟩ => ⟨S2x16x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x16, .f32⟩
  | .hbm, ⟨64, _⟩ => ⟨S100000x16, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x16, .f32⟩
  | .hbm, ⟨74, _⟩ => ⟨S1600000x1, .f32⟩
  | .hbm, ⟨75, _⟩ => ⟨S1600000x16, .f32⟩
  | .hbm, ⟨76, _⟩ => ⟨S1600000x16, .f32⟩
  | .hbm, ⟨77, _⟩ => ⟨S_, .f32⟩
  | .hbm, ⟨78, _⟩ => ⟨S100000x16, .f32⟩
  | .hbm, ⟨79, _⟩ => ⟨S1600000x1, .i32⟩
  | .hbm, ⟨80, _⟩ => ⟨S100000x16, .f32⟩
  | .hbm, ⟨81, _⟩ => ⟨S1x128, .f32⟩
  | .hbm, ⟨82, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S2x128x16, .f32⟩
  | .local _ .vmem, ⟨5, _⟩ => ⟨S1x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S2x16x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S16_S1x16 : S16.ShapeCasts S1x16
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S2x128x16_S1x128x16_0_0_0 : ∀ a, (![0, 0, 0] : Fin 3 → Nat) a + S1x128x16.size a ≤ S2x128x16.size a
  h_S1x128x16 : 0 < S1x128x16.numel
  shapeCasts_S1x128x16_S128x16 : S1x128x16.ShapeCasts S128x16
  inb_S2x128x16_S1x128x16_1_0_0 : ∀ a, (![1, 0, 0] : Fin 3 → Nat) a + S1x128x16.size a ≤ S2x128x16.size a
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S128_S1x128 : S128.ShapeCasts S1x128
  shapeCasts_S5000x16_S5000x16 : S5000x16.ShapeCasts S5000x16
  inb_S2x16x128_S1x16x128_0_0_0 : ∀ a, (![0, 0, 0] : Fin 3 → Nat) a + S1x16x128.size a ≤ S2x16x128.size a
  h_S1x16x128 : 0 < S1x16x128.numel
  shapeCasts_S1x16x128_S16x128 : S1x16x128.ShapeCasts S16x128
  inb_S2x16x128_S1x16x128_1_0_0 : ∀ a, (![1, 0, 0] : Fin 3 → Nat) a + S1x16x128.size a ≤ S2x16x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x16_S5000x16_1_0_0_1_n_n_wf : DotDims.WF S5000x128 S128x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x128_S5000x128_1_0_0_1_n_n_wf : DotDims.WF S5000x16 S16x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128x16.size a ≤ S2x128x16.size a
  hwx0_2 : ∀ i : grid0.Coords, EltTy.bits .f32 = 32 ∨ (Rect.block (s := S2x128x16) S2x128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x16.size a ≤ S100000x16.size a
  hwx0_4 : ∀ i : grid0.Coords, EltTy.bits .f32 = 32 ∨ (Rect.block (s := S100000x16) S5000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x16x128.size a ≤ S2x16x128.size a
  hwx1_2 : ∀ i : grid1.Coords, EltTy.bits .f32 = 32 ∨ (Rect.block (s := S2x16x128) S2x16x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S5000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v44) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S2x16x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x128x16 : Shape := ⟨3, ![2, 128, 16]⟩
abbrev S16 : Shape := ⟨1, ![16]⟩
abbrev S2x16x128 : Shape := ⟨3, ![2, 16, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128x16 : Shape := ⟨3, ![1, 128, 16]⟩
abbrev S128x16 : Shape := ⟨2, ![128, 16]⟩
abbrev S100000x16 : Shape := ⟨2, ![100000, 16]⟩
abbrev S1x16 : Shape := ⟨2, ![1, 16]⟩
abbrev S1600000x16 : Shape := ⟨2, ![1600000, 16]⟩
abbrev S1x16x128 : Shape := ⟨3, ![1, 16, 128]⟩
abbrev S16x128 : Shape := ⟨2, ![16, 128]⟩
abbrev S1x128 : Shape := ⟨2, ![1, 128]⟩
abbrev S100000x1 : Shape := ⟨2, ![100000, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x128x16, .f32⟩
  | .hbm, ⟨3, _⟩ => ⟨S16, .f32⟩
  | .hbm, ⟨4, _⟩ => ⟨S2x16x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128x16, .f32⟩
  | .hbm, ⟨64, _⟩ => ⟨S128x16, .f32⟩
  | .hbm, ⟨65, _⟩ => ⟨S100000x16, .f32⟩
  | .hbm, ⟨66, _⟩ => ⟨S1x128x16, .f32⟩
  | .hbm, ⟨67, _⟩ => ⟨S128x16, .f32⟩
  | .hbm, ⟨68, _⟩ => ⟨S100000x16, .f32⟩
  | .hbm, ⟨69, _⟩ => ⟨S100000x16, .f32⟩
  | .hbm, ⟨70, _⟩ => ⟨S1x16, .f32⟩
  | .hbm, ⟨71, _⟩ => ⟨S100000x16, .f32⟩
  | .hbm, ⟨72, _⟩ => ⟨S100000x16, .f32⟩
  | .hbm, ⟨73, _⟩ => ⟨S_, .f32⟩
  | .hbm, ⟨74, _⟩ => ⟨S100000x16, .f32⟩
  | .hbm, ⟨75, _⟩ => ⟨S100000x16, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x16, .f32⟩
  | .hbm, ⟨85, _⟩ => ⟨S1600000x1, .f32⟩
  | .hbm, ⟨86, _⟩ => ⟨S1600000x16, .f32⟩
  | .hbm, ⟨87, _⟩ => ⟨S1600000x16, .f32⟩
  | .hbm, ⟨88, _⟩ => ⟨S_, .f32⟩
  | .hbm, ⟨89, _⟩ => ⟨S100000x16, .f32⟩
  | .hbm, ⟨90, _⟩ => ⟨S1600000x1, .i32⟩
  | .hbm, ⟨91, _⟩ => ⟨S100000x16, .f32⟩
  | .hbm, ⟨92, _⟩ => ⟨S1x16x128, .f32⟩
  | .hbm, ⟨93, _⟩ => ⟨S16x128, .f32⟩
  | .hbm, ⟨94, _⟩ => ⟨S100000x128, .f32⟩
  | .hbm, ⟨95, _⟩ => ⟨S1x16x128, .f32⟩
  | .hbm, ⟨96, _⟩ => ⟨S16x128, .f32⟩
  | .hbm, ⟨97, _⟩ => ⟨S100000x128, .f32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S_, .f32⟩
  | .hbm, ⟨103, _⟩ => ⟨S100000, .f32⟩
  | .hbm, ⟨104, _⟩ => ⟨S_, .f32⟩
  | .hbm, ⟨105, _⟩ => ⟨S100000, .f32⟩
  | .hbm, ⟨106, _⟩ => ⟨S100000, .f32⟩
  | .hbm, ⟨107, _⟩ => ⟨S100000x1, .f32⟩
  | .hbm, ⟨108, _⟩ => ⟨S100000x128, .f32⟩
  | .hbm, ⟨109, _⟩ => ⟨S100000x128, .f32⟩
  | .hbm, ⟨110, _⟩ => ⟨S100000x128, .f32⟩
  | .hbm, ⟨111, _⟩ => ⟨S_, .f32⟩
  | .hbm, ⟨112, _⟩ => ⟨S100000, .f32⟩
  | .hbm, ⟨113, _⟩ => ⟨S100000x1, .f32⟩
  | .hbm, ⟨114, _⟩ => ⟨S100000x1, .f32⟩
  | .hbm, ⟨115, _⟩ => ⟨S100000x128, .f32⟩
  | .hbm, ⟨116, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call1_cst : Ref sig .tc := ⟨.hbm, 73, rfl⟩
abbrev main_call1_v0 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_call2_cst : Ref sig .tc := ⟨.hbm, 102, rfl⟩
abbrev main_call2_v0 : Ref sig .tc := ⟨.hbm, 103, rfl⟩
abbrev main_call2_cst_0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_v6 : Ref sig .tc := ⟨.hbm, 110, rfl⟩
abbrev main_call2_cst_1 : Ref sig .tc := ⟨.hbm, 111, rfl⟩
abbrev main_call2_v7 : Ref sig .tc := ⟨.hbm, 112, rfl⟩
abbrev main_call2_v8 : Ref sig .tc := ⟨.hbm, 113, rfl⟩
abbrev main_call2_v9 : Ref sig .tc := ⟨.hbm, 114, rfl⟩
abbrev main_call2_v10 : Ref sig .tc := ⟨.hbm, 115, rfl⟩
abbrev main_v77 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S2x128x16_S1x128x16_0_0_0 : S2x128x16.Slices ![0, 0, 0] S1x128x16
  shapeCasts_S1x128x16_S128x16 : S1x128x16.ShapeCasts S128x16
  slices_S2x128x16_S1x128x16_1_0_0 : S2x128x16.Slices ![1, 0, 0] S1x128x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1600000x1_S1600000x16_0_1 : S1600000x1.BroadcastsInDim S1600000x16 (![0, 1] : Fin 2 → Fin S1600000x16.rank)
  slices_S2x16x128_S1x16x128_0_0_0 : S2x16x128.Slices ![0, 0, 0] S1x16x128
  shapeCasts_S1x16x128_S16x128 : S1x16x128.ShapeCasts S16x128
  slices_S2x16x128_S1x16x128_1_0_0 : S2x16x128.Slices ![1, 0, 0] S1x16x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x16_S100000x16_1_0_0_1_n_n_wf : DotDims.WF S100000x128 S128x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x128_S100000x128_1_0_0_1_n_n_wf : DotDims.WF S100000x16 S16x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf

class Facts : Prop extends Facts₀ where

variable [Facts]
-- ==== Proof.RefValue.lean ====
/-
  The reference's run, read in nine consecutive stretches.

  The reference is one straight line of 111 host operations. Its buffer contents after the line are a fold through the
  operations from the launch memory; the fold is read stretch by stretch — the index vectors and the degrees; the
  inverse square root of the degree (an outlined select); the edge weights and the first propagation; the first dense
  layer; its rectifier (outlined); the second propagation; the second dense layer; the row maxima and then the rest of
  the log-softmax (outlined) — each
  stretch a function of the contents it is entered with. Entered with the stage values `val_…` of the operations it
  reads, a stretch leaves the stage values of the operations it writes, and every buffer it does not write as it was.
  Chained from the launch memory this gives the result buffer at the last stage, `val_main_v77` of the six argument
  arrays, in every final state of every weakly fair execution.
-/
import proofs.«130379_j67542655697471_1_alg».proof.Proof.RefReadP

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.StableHlo
open Cert.ReferenceIdeal.ValueP (ops main_eq scopedRefs_eq scopedSems_eq ops_sub)

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The nine stretches of the operation list -/

/-- Operations 1–18: the two index vectors, the degrees, the two branches of the inverse square root. -/
abbrev stageA : List (HloOp τ sig (Elt F)) := (ops (F := F)).take 18
/-- Operations 19–21: the inverse square root of the degree where it is positive (outlined `where`). -/
abbrev stageB : List (HloOp τ sig (Elt F)) := ((ops (F := F)).drop 18).take 3
/-- Operations 22–57: the edge weights and the first propagation. -/
abbrev stageC : List (HloOp τ sig (Elt F)) := ((ops (F := F)).drop 21).take 36
/-- Operations 58–67: the first dense layer before its rectifier. -/
abbrev stageD : List (HloOp τ sig (Elt F)) := ((ops (F := F)).drop 57).take 10
/-- Operations 68–70: the rectifier (outlined `relu`). -/
abbrev stageE : List (HloOp τ sig (Elt F)) := ((ops (F := F)).drop 67).take 3
/-- Operations 71–86: the second propagation. -/
abbrev stageF : List (HloOp τ sig (Elt F)) := ((ops (F := F)).drop 70).take 16
/-- Operations 87–96: the second dense layer before its log-softmax. -/
abbrev stageG : List (HloOp τ sig (Elt F)) := ((ops (F := F)).drop 86).take 10
/-- Operations 97–98: the row maxima of the logits (the first two operations of the outlined log-softmax). -/
abbrev stageH1 : List (HloOp τ sig (Elt F)) := ((ops (F := F)).drop 96).take 2
/-- Operations 99–111: the rest of the log-softmax. -/
abbrev stageH2 : List (HloOp τ sig (Elt F)) := (ops (F := F)).drop 98

theorem ops_split : ops (F := F) = stageA ++ (stageB ++ (stageC ++ (stageD ++ (stageE ++ (stageF ++ (stageG ++ (stageH1 ++ stageH2))))))) := rfl

/-- Spell a stretch as the literal list of its operations. -/
macro "stage_lists" : tactic =>
  `(tactic| simp only [stageA, stageB, stageC, stageD, stageE, stageF, stageG, stageH1, stageH2, ops, List.take_succ_cons, List.take_zero,
      List.drop_succ_cons, List.drop_zero])

variable (X : Valuation τ sig (Elt F))

/-! ## Stretch A -/

theorem A_rows : after (stageA (F := F)) X (Proc.devRef .tc main_v1) = val_main_v1 (F := F) (X (Proc.devRef .tc main_arg1)) := by
  stage_lists; after_results_simp; rfl
theorem A_cols : after (stageA (F := F)) X (Proc.devRef .tc main_v3) = val_main_v3 (F := F) (X (Proc.devRef .tc main_arg1)) := by
  stage_lists; after_results_simp; rfl
theorem A_positive : after (stageA (F := F)) X (Proc.devRef .tc main_v9) = val_main_v9 (F := F) (X (Proc.devRef .tc main_arg1)) := by
  stage_lists; after_results_simp; rfl
theorem A_rsqrt : after (stageA (F := F)) X (Proc.devRef .tc main_v12) = val_main_v12 (F := F) (X (Proc.devRef .tc main_arg1)) := by
  stage_lists; after_results_simp; rfl
theorem A_zero : after (stageA (F := F)) X (Proc.devRef .tc main_cst_3) = val_main_cst_3 (F := F) := by
  stage_lists; after_results_simp; rfl
theorem A_keeps_arg0 : after (stageA (F := F)) X (Proc.devRef .tc main_arg0) = X (Proc.devRef .tc main_arg0) := by stage_lists; after_results_simp
theorem A_keeps_arg2 : after (stageA (F := F)) X (Proc.devRef .tc main_arg2) = X (Proc.devRef .tc main_arg2) := by stage_lists; after_results_simp
theorem A_keeps_arg3 : after (stageA (F := F)) X (Proc.devRef .tc main_arg3) = X (Proc.devRef .tc main_arg3) := by stage_lists; after_results_simp
theorem A_keeps_arg4 : after (stageA (F := F)) X (Proc.devRef .tc main_arg4) = X (Proc.devRef .tc main_arg4) := by stage_lists; after_results_simp
theorem A_keeps_arg5 : after (stageA (F := F)) X (Proc.devRef .tc main_arg5) = X (Proc.devRef .tc main_arg5) := by stage_lists; after_results_simp

/-! ## Stretch B -/

theorem B_dinv (x1 : (⟨S2x1600000, .i32⟩ : BufTy).Contents (Elt F))
    (h9 : X (Proc.devRef .tc main_v9) = val_main_v9 (F := F) x1) (h12 : X (Proc.devRef .tc main_v12) = val_main_v12 (F := F) x1)
    (hz : X (Proc.devRef .tc main_cst_3) = val_main_cst_3 (F := F)) :
    after (stageB (F := F)) X (Proc.devRef .tc main_v13) = val_main_v13 (F := F) x1 := by
  stage_lists; after_results_simp
  rw [h9, h12, hz]
  rfl
theorem B_keeps_v1 : after (stageB (F := F)) X (Proc.devRef .tc main_v1) = X (Proc.devRef .tc main_v1) := by stage_lists; after_results_simp
theorem B_keeps_v3 : after (stageB (F := F)) X (Proc.devRef .tc main_v3) = X (Proc.devRef .tc main_v3) := by stage_lists; after_results_simp
theorem B_keeps_arg0 : after (stageB (F := F)) X (Proc.devRef .tc main_arg0) = X (Proc.devRef .tc main_arg0) := by stage_lists; after_results_simp
theorem B_keeps_arg2 : after (stageB (F := F)) X (Proc.devRef .tc main_arg2) = X (Proc.devRef .tc main_arg2) := by stage_lists; after_results_simp
theorem B_keeps_arg3 : after (stageB (F := F)) X (Proc.devRef .tc main_arg3) = X (Proc.devRef .tc main_arg3) := by stage_lists; after_results_simp
theorem B_keeps_arg4 : after (stageB (F := F)) X (Proc.devRef .tc main_arg4) = X (Proc.devRef .tc main_arg4) := by stage_lists; after_results_simp
theorem B_keeps_arg5 : after (stageB (F := F)) X (Proc.devRef .tc main_arg5) = X (Proc.devRef .tc main_arg5) := by stage_lists; after_results_simp

/-! ## Stretch C -/

theorem C_weights (x1 : (⟨S2x1600000, .i32⟩ : BufTy).Contents (Elt F))
    (h13 : X (Proc.devRef .tc main_v13) = val_main_v13 (F := F) x1) (h1 : X (Proc.devRef .tc main_v1) = val_main_v1 (F := F) x1)
    (h3 : X (Proc.devRef .tc main_v3) = val_main_v3 (F := F) x1) :
    after (stageC (F := F)) X (Proc.devRef .tc main_v29) = val_main_v29 (F := F) x1 := by
  stage_lists; after_results_simp
  rw [h13, h1, h3]
  rfl
theorem C_propagated (x0 : (⟨S100000x128, .f32⟩ : BufTy).Contents (Elt F)) (x1 : (⟨S2x1600000, .i32⟩ : BufTy).Contents (Elt F))
    (h13 : X (Proc.devRef .tc main_v13) = val_main_v13 (F := F) x1) (h1 : X (Proc.devRef .tc main_v1) = val_main_v1 (F := F) x1)
    (h3 : X (Proc.devRef .tc main_v3) = val_main_v3 (F := F) x1) (h0 : X (Proc.devRef .tc main_arg0) = x0) :
    after (stageC (F := F)) X (Proc.devRef .tc main_v42) = val_main_v42 (F := F) x0 x1 := by
  stage_lists; after_results_simp
  rw [h13, h1, h3, h0]
  rfl
theorem C_keeps_v1 : after (stageC (F := F)) X (Proc.devRef .tc main_v1) = X (Proc.devRef .tc main_v1) := by stage_lists; after_results_simp
theorem C_keeps_v3 : after (stageC (F := F)) X (Proc.devRef .tc main_v3) = X (Proc.devRef .tc main_v3) := by stage_lists; after_results_simp
theorem C_keeps_arg0 : after (stageC (F := F)) X (Proc.devRef .tc main_arg0) = X (Proc.devRef .tc main_arg0) := by stage_lists; after_results_simp
theorem C_keeps_arg2 : after (stageC (F := F)) X (Proc.devRef .tc main_arg2) = X (Proc.devRef .tc main_arg2) := by stage_lists; after_results_simp
theorem C_keeps_arg3 : after (stageC (F := F)) X (Proc.devRef .tc main_arg3) = X (Proc.devRef .tc main_arg3) := by stage_lists; after_results_simp
theorem C_keeps_arg4 : after (stageC (F := F)) X (Proc.devRef .tc main_arg4) = X (Proc.devRef .tc main_arg4) := by stage_lists; after_results_simp
theorem C_keeps_arg5 : after (stageC (F := F)) X (Proc.devRef .tc main_arg5) = X (Proc.devRef .tc main_arg5) := by stage_lists; after_results_simp

/-! ## Stretch D -/

theorem D_dense (x0 : (⟨S100000x128, .f32⟩ : BufTy).Contents (Elt F)) (x1 : (⟨S2x1600000, .i32⟩ : BufTy).Contents (Elt F)) (x2 : (⟨S2x128x16, .f32⟩ : BufTy).Contents (Elt F)) (x3 : (⟨S16, .f32⟩ : BufTy).Contents (Elt F))
    (h0 : X (Proc.devRef .tc main_arg0) = x0) (h42 : X (Proc.devRef .tc main_v42) = val_main_v42 (F := F) x0 x1)
    (h2 : X (Proc.devRef .tc main_arg2) = x2) (h3 : X (Proc.devRef .tc main_arg3) = x3) :
    after (stageD (F := F)) X (Proc.devRef .tc main_v52) = val_main_v52 (F := F) x0 x1 x2 x3 := by
  stage_lists; after_results_simp
  rw [h0, h42, h2, h3]
  rfl
theorem D_keeps_v29 : after (stageD (F := F)) X (Proc.devRef .tc main_v29) = X (Proc.devRef .tc main_v29) := by stage_lists; after_results_simp
theorem D_keeps_v1 : after (stageD (F := F)) X (Proc.devRef .tc main_v1) = X (Proc.devRef .tc main_v1) := by stage_lists; after_results_simp
theorem D_keeps_v3 : after (stageD (F := F)) X (Proc.devRef .tc main_v3) = X (Proc.devRef .tc main_v3) := by stage_lists; after_results_simp
theorem D_keeps_arg4 : after (stageD (F := F)) X (Proc.devRef .tc main_arg4) = X (Proc.devRef .tc main_arg4) := by stage_lists; after_results_simp
theorem D_keeps_arg5 : after (stageD (F := F)) X (Proc.devRef .tc main_arg5) = X (Proc.devRef .tc main_arg5) := by stage_lists; after_results_simp

/-! ## Stretch E -/

theorem E_hidden (x0 : (⟨S100000x128, .f32⟩ : BufTy).Contents (Elt F)) (x1 : (⟨S2x1600000, .i32⟩ : BufTy).Contents (Elt F)) (x2 : (⟨S2x128x16, .f32⟩ : BufTy).Contents (Elt F)) (x3 : (⟨S16, .f32⟩ : BufTy).Contents (Elt F))
    (h52 : X (Proc.devRef .tc main_v52) = val_main_v52 (F := F) x0 x1 x2 x3) :
    after (stageE (F := F)) X (Proc.devRef .tc main_v53) = val_main_v53 (F := F) x0 x1 x2 x3 := by
  stage_lists; after_results_simp
  rw [h52]
  rfl
theorem E_keeps_v29 : after (stageE (F := F)) X (Proc.devRef .tc main_v29) = X (Proc.devRef .tc main_v29) := by stage_lists; after_results_simp
theorem E_keeps_v1 : after (stageE (F := F)) X (Proc.devRef .tc main_v1) = X (Proc.devRef .tc main_v1) := by stage_lists; after_results_simp
theorem E_keeps_v3 : after (stageE (F := F)) X (Proc.devRef .tc main_v3) = X (Proc.devRef .tc main_v3) := by stage_lists; after_results_simp
theorem E_keeps_arg4 : after (stageE (F := F)) X (Proc.devRef .tc main_arg4) = X (Proc.devRef .tc main_arg4) := by stage_lists; after_results_simp
theorem E_keeps_arg5 : after (stageE (F := F)) X (Proc.devRef .tc main_arg5) = X (Proc.devRef .tc main_arg5) := by stage_lists; after_results_simp

/-! ## Stretch F -/

theorem F_propagated (x0 : (⟨S100000x128, .f32⟩ : BufTy).Contents (Elt F)) (x1 : (⟨S2x1600000, .i32⟩ : BufTy).Contents (Elt F)) (x2 : (⟨S2x128x16, .f32⟩ : BufTy).Contents (Elt F)) (x3 : (⟨S16, .f32⟩ : BufTy).Contents (Elt F))
    (hh : X (Proc.devRef .tc main_v53) = val_main_v53 (F := F) x0 x1 x2 x3) (hw : X (Proc.devRef .tc main_v29) = val_main_v29 (F := F) x1)
    (h1 : X (Proc.devRef .tc main_v1) = val_main_v1 (F := F) x1) (h3 : X (Proc.devRef .tc main_v3) = val_main_v3 (F := F) x1) :
    after (stageF (F := F)) X (Proc.devRef .tc main_v66) = val_main_v66 (F := F) x0 x1 x2 x3 := by
  stage_lists; after_results_simp
  rw [hh, hw, h1, h3]
  rfl
theorem F_keeps_v53 : after (stageF (F := F)) X (Proc.devRef .tc main_v53) = X (Proc.devRef .tc main_v53) := by stage_lists; after_results_simp
theorem F_keeps_arg4 : after (stageF (F := F)) X (Proc.devRef .tc main_arg4) = X (Proc.devRef .tc main_arg4) := by stage_lists; after_results_simp
theorem F_keeps_arg5 : after (stageF (F := F)) X (Proc.devRef .tc main_arg5) = X (Proc.devRef .tc main_arg5) := by stage_lists; after_results_simp

/-! ## Stretch G -/

theorem G_dense (x0 : (⟨S100000x128, .f32⟩ : BufTy).Contents (Elt F)) (x1 : (⟨S2x1600000, .i32⟩ : BufTy).Contents (Elt F)) (x2 : (⟨S2x128x16, .f32⟩ : BufTy).Contents (Elt F)) (x3 : (⟨S16, .f32⟩ : BufTy).Contents (Elt F)) (x4 : (⟨S2x16x128, .f32⟩ : BufTy).Contents (Elt F)) (x5 : (⟨S128, .f32⟩ : BufTy).Contents (Elt F))
    (hh : X (Proc.devRef .tc main_v53) = val_main_v53 (F := F) x0 x1 x2 x3) (ht : X (Proc.devRef .tc main_v66) = val_main_v66 (F := F) x0 x1 x2 x3)
    (h4 : X (Proc.devRef .tc main_arg4) = x4) (h5 : X (Proc.devRef .tc main_arg5) = x5) :
    after (stageG (F := F)) X (Proc.devRef .tc main_v76) = val_main_v76 (F := F) x0 x1 x2 x3 x4 x5 := by
  stage_lists; after_results_simp
  rw [hh, ht, h4, h5]
  rfl

/-! ## Stretches H1 and H2 -/

/-- The first two operations of the log-softmax leave the row maxima of the logits they find: the host's reduce with a
    maximum body from −∞ (the transports between a buffer's type and the value's, which are identities, removed). -/
theorem H1_maxima : after (stageH1 (F := F)) X (Proc.devRef .tc main_call2_v0)
    = Host.reduce FloatOps.maximumf (X (Proc.devRef .tc main_v76) : (⟨S100000x128, .f32⟩ : BufTy).Contents (Elt F)) (constant S_ .f32 0xFF800000#32) reducesTo_S100000x128_S100000_d1 h_S_ := by
  stage_lists; after_results_simp
  simp only [TRef.toBuf, TRef.ofBuf]
  repeat rw (config := { transparency := .default }) [cast_eq]
  try rfl
theorem H1_keeps_v76 : after (stageH1 (F := F)) X (Proc.devRef .tc main_v76) = X (Proc.devRef .tc main_v76) := by stage_lists; after_results_simp

/-- The rest of the log-softmax as a function of the logits `L` and of their row maxima `mx`: one more maximum with a
    splat −∞, the shift, the exponentials, their row sums, the logarithm, the second subtraction. -/
def logSoftmaxFrom (L : (⟨S100000x128, .f32⟩ : BufTy).Contents (Elt F)) (mx : (⟨S100000, .f32⟩ : BufTy).Contents (Elt F)) : (⟨S100000x128, .f32⟩ : BufTy).Contents (Elt F) :=
  subf (subf L (broadcastInDim S100000x128 ![0, 1] bcast_S100000x1_S100000x128_0_1 (broadcastInDim S100000x1 ![0] bcast_S100000_S100000x1_0
      (maximumf (broadcastInDim S100000 ![] bcast_S_S100000 (constant S_ .f32 0xFF800000#32)) mx))))
    (broadcastInDim S100000x128 ![0, 1] bcast_S100000x1_S100000x128_0_1 (Host.log (broadcastInDim S100000x1 ![0] bcast_S100000_S100000x1_0
      (Host.reduceAdd (Host.exp (subf L (broadcastInDim S100000x128 ![0, 1] bcast_S100000x1_S100000x128_0_1
          (broadcastInDim S100000x1 ![0] bcast_S100000_S100000x1_0
            (maximumf (broadcastInDim S100000 ![] bcast_S_S100000 (constant S_ .f32 0xFF800000#32)) mx)))))
        (constant S_ .f32 0x00000000#32) reducesTo_S100000x128_S100000_d1 h_S_))))

/-- The remaining thirteen operations apply that function to the logits and the maxima they find. -/
theorem H2_rest : after (stageH2 (F := F)) X (Proc.devRef .tc main_v77)
    = logSoftmaxFrom (F := F) (X (Proc.devRef .tc main_v76)) (X (Proc.devRef .tc main_call2_v0)) := by
  stage_lists; after_results_simp
  rfl

/-- The stage of the maxima is the reduce of the logits' stage. -/
theorem maxima_stage (x0 : (⟨S100000x128, .f32⟩ : BufTy).Contents (Elt F)) (x1 : (⟨S2x1600000, .i32⟩ : BufTy).Contents (Elt F)) (x2 : (⟨S2x128x16, .f32⟩ : BufTy).Contents (Elt F)) (x3 : (⟨S16, .f32⟩ : BufTy).Contents (Elt F)) (x4 : (⟨S2x16x128, .f32⟩ : BufTy).Contents (Elt F)) (x5 : (⟨S128, .f32⟩ : BufTy).Contents (Elt F)) :
    val_main_call2_v0 (F := F) x0 x1 x2 x3 x4 x5
      = Host.reduce FloatOps.maximumf (val_main_v76 (F := F) x0 x1 x2 x3 x4 x5) (constant S_ .f32 0xFF800000#32) reducesTo_S100000x128_S100000_d1 h_S_ := rfl

/-- The last stage is that function of the logits' stage and of the maxima's. -/
theorem result_stage (x0 : (⟨S100000x128, .f32⟩ : BufTy).Contents (Elt F)) (x1 : (⟨S2x1600000, .i32⟩ : BufTy).Contents (Elt F)) (x2 : (⟨S2x128x16, .f32⟩ : BufTy).Contents (Elt F)) (x3 : (⟨S16, .f32⟩ : BufTy).Contents (Elt F)) (x4 : (⟨S2x16x128, .f32⟩ : BufTy).Contents (Elt F)) (x5 : (⟨S128, .f32⟩ : BufTy).Contents (Elt F)) :
    val_main_v77 (F := F) x0 x1 x2 x3 x4 x5
      = logSoftmaxFrom (F := F) (val_main_v76 (F := F) x0 x1 x2 x3 x4 x5) (val_main_call2_v0 (F := F) x0 x1 x2 x3 x4 x5) := rfl

theorem H1_result (x0 : (⟨S100000x128, .f32⟩ : BufTy).Contents (Elt F)) (x1 : (⟨S2x1600000, .i32⟩ : BufTy).Contents (Elt F)) (x2 : (⟨S2x128x16, .f32⟩ : BufTy).Contents (Elt F)) (x3 : (⟨S16, .f32⟩ : BufTy).Contents (Elt F)) (x4 : (⟨S2x16x128, .f32⟩ : BufTy).Contents (Elt F)) (x5 : (⟨S128, .f32⟩ : BufTy).Contents (Elt F))
    (h76 : X (Proc.devRef .tc main_v76) = val_main_v76 (F := F) x0 x1 x2 x3 x4 x5) :
    after (stageH1 (F := F)) X (Proc.devRef .tc main_call2_v0) = val_main_call2_v0 (F := F) x0 x1 x2 x3 x4 x5 :=
  (H1_maxima X).trans ((congrArg (fun L => Host.reduce FloatOps.maximumf L (constant S_ .f32 0xFF800000#32) reducesTo_S100000x128_S100000_d1 h_S_) h76).trans
    (maxima_stage x0 x1 x2 x3 x4 x5).symm)

theorem H2_result (x0 : (⟨S100000x128, .f32⟩ : BufTy).Contents (Elt F)) (x1 : (⟨S2x1600000, .i32⟩ : BufTy).Contents (Elt F)) (x2 : (⟨S2x128x16, .f32⟩ : BufTy).Contents (Elt F)) (x3 : (⟨S16, .f32⟩ : BufTy).Contents (Elt F)) (x4 : (⟨S2x16x128, .f32⟩ : BufTy).Contents (Elt F)) (x5 : (⟨S128, .f32⟩ : BufTy).Contents (Elt F))
    (h76 : X (Proc.devRef .tc main_v76) = val_main_v76 (F := F) x0 x1 x2 x3 x4 x5)
    (hmx : X (Proc.devRef .tc main_call2_v0) = val_main_call2_v0 (F := F) x0 x1 x2 x3 x4 x5) :
    after (stageH2 (F := F)) X (Proc.devRef .tc main_v77) = val_main_v77 (F := F) x0 x1 x2 x3 x4 x5 :=
  (H2_rest X).trans ((congr (congrArg logSoftmaxFrom h76) hmx).trans (result_stage x0 x1 x2 x3 x4 x5).symm)

/-! ## The fold, and the run -/

/-- The result buffer after the whole line: the last stage, of the entering contents of the six argument buffers. -/
theorem fold_result (V : Valuation τ sig (Elt F)) :
    after (ops (F := F)) V (Proc.devRef .tc main_v77)
      = val_main_v77 (F := F) (V (Proc.devRef .tc main_arg0)) (V (Proc.devRef .tc main_arg1)) (V (Proc.devRef .tc main_arg2)) (V (Proc.devRef .tc main_arg3))
          (V (Proc.devRef .tc main_arg4)) (V (Proc.devRef .tc main_arg5)) := by
  rw [ops_split]
  simp only [after_append]
  have a1 := A_rows V; have a3 := A_cols V; have a9 := A_positive V; have a12 := A_rsqrt V; have az := A_zero V
  have p0 := A_keeps_arg0 V; have p2 := A_keeps_arg2 V; have p3 := A_keeps_arg3 V; have p4 := A_keeps_arg4 V; have p5 := A_keeps_arg5 V
  generalize after (stageA (F := F)) V = VA at *
  have b13 := B_dinv VA _ a9 a12 az
  have b1 := (B_keeps_v1 VA).trans a1; have b3 := (B_keeps_v3 VA).trans a3
  have q0 := (B_keeps_arg0 VA).trans p0; have q2 := (B_keeps_arg2 VA).trans p2; have q3 := (B_keeps_arg3 VA).trans p3
  have q4 := (B_keeps_arg4 VA).trans p4; have q5 := (B_keeps_arg5 VA).trans p5
  generalize after (stageB (F := F)) VA = VB at *
  have c29 := C_weights VB _ b13 b1 b3
  have c42 := C_propagated VB _ _ b13 b1 b3 q0
  have c1 := (C_keeps_v1 VB).trans b1; have c3 := (C_keeps_v3 VB).trans b3
  have r0 := (C_keeps_arg0 VB).trans q0; have r2 := (C_keeps_arg2 VB).trans q2; have r3 := (C_keeps_arg3 VB).trans q3
  have r4 := (C_keeps_arg4 VB).trans q4; have r5 := (C_keeps_arg5 VB).trans q5
  generalize after (stageC (F := F)) VB = VC at *
  have d52 := D_dense VC _ _ _ _ r0 c42 r2 r3
  have d29 := (D_keeps_v29 VC).trans c29; have d1 := (D_keeps_v1 VC).trans c1; have d3 := (D_keeps_v3 VC).trans c3
  have s4 := (D_keeps_arg4 VC).trans r4; have s5 := (D_keeps_arg5 VC).trans r5
  generalize after (stageD (F := F)) VC = VD at *
  have e53 := E_hidden VD _ _ _ _ d52
  have e29 := (E_keeps_v29 VD).trans d29; have e1 := (E_keeps_v1 VD).trans d1; have e3 := (E_keeps_v3 VD).trans d3
  have t4 := (E_keeps_arg4 VD).trans s4; have t5 := (E_keeps_arg5 VD).trans s5
  generalize after (stageE (F := F)) VD = VE at *
  have f66 := F_propagated VE _ _ _ _ e53 e29 e1 e3
  have f53 := (F_keeps_v53 VE).trans e53
  have u4 := (F_keeps_arg4 VE).trans t4; have u5 := (F_keeps_arg5 VE).trans t5
  generalize after (stageF (F := F)) VE = VF at *
  have g76 := G_dense VF _ _ _ _ _ _ f53 f66 u4 u5
  generalize after (stageG (F := F)) VF = VG at *
  have hmx := H1_result VG _ _ _ _ _ _ g76
  have h76 := (H1_keeps_v76 VG).trans g76
  generalize after (stageH1 (F := F)) VG = VH at *
  exact H2_result VH _ _ _ _ _ _ h76 hmx

set_option maxRecDepth 8192 in
set_option maxHeartbeats 44400000 in
/-- Every weakly fair execution of the reference terminates, nothing faulting, with the result buffer at the last
    stage of the launch contents of the six argument arrays, and those arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77)
        = val_main_v77 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v77).trans (fold_result _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefValue

end
-- ==== Proof.KernelRun.lean ====
/-
  The idealized kernel's run with its RESULT named.

  @main of the kernel is six segments: three stretches of host operations (the degree normalisation and the first
  propagation along the edges), the first dense launch over twenty blocks of 5000 nodes, a stretch of host operations
  (the second propagation, of the hidden features), and the second dense launch. The contents of every buffer at each
  segment boundary are a fold through those segments from the launch memory; at the end (`W6`) the result buffer holds
  what the second launch's write-backs leave in its array. Every weakly fair execution terminates, nothing faulting,
  with the result buffer at that fold's value and the six argument arrays as launched: the launch over the segments,
  the last thread state read against the final state.
-/
import proofs.«130379_j67542655697471_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents `W6` and the argument arrays as launched. -/
theorem run_result : θ_run defs (onTc (τ := τ) (main (F := F))) ⟨m, fun _ => 0, ρ⟩ (fun r => ∀ c : Dev nD,
      r.2.mem ((c.tc : Thread nD τ).loc main_v59) = W6 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v59 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.KernelHost.lean ====
/-
  The kernel's host stretches, read against the reference's stages.

  Around its two dense launches the kernel runs, on the host, the irregular part of the network exactly as the
  reference does: from the edge list the two index vectors (source rows, target columns); the degree of every node as
  a scatter-add of ones, its inverse square root where the degree is positive; the weight `−d⁻¹ᐟ²[row]·d⁻¹ᐟ²[col]` of
  every edge; and the propagated features, a scatter-add over the edges of the gathered, weighted rows. Each stretch of
  host operations is a function of the buffer contents it is entered with. Stated over ARBITRARY entering contents `X`,
  each stretch leaves in the buffers it writes the reference's value of that same stage (`val_…`, a function of
  @main's arguments), provided `X` held the reference's values of the stages it reads — and leaves every buffer it
  does not write as it was.
-/
import proofs.«130379_j67542655697471_1_alg».proof.Proof.Gen.KernelIdeal.Frame
import proofs.«130379_j67542655697471_1_alg».proof.Proof.RefReadP

set_option maxRecDepth 16384

noncomputable section

namespace Cert.KernelIdeal.HostStages

open Cert.KernelIdeal Cert.KernelIdeal.Gen
open Idealize.ShloMosaic Idealize.ShloMosaic.TcCoe Idealize.SL.Sem Idealize.ShloMosaic.StableHlo
open Cert.ReferenceIdeal.ReadP (val_main_v1 val_main_v3 val_main_v9 val_main_v12 val_main_cst_3 val_main_v13 val_main_v29 val_main_v42
  val_main_v53 val_main_v66)

variable {F : FTy → Type} [FloatOps F]
variable (X : Valuation τ sig (Elt F))

/-! ## The first stretch: the index vectors, the degrees, and the two branches of the inverse square root -/

theorem rows_after0 : after (hostOps0 (F := F)) X (Proc.devRef .tc main_v1) = val_main_v1 (F := F) (X (Proc.devRef .tc main_arg1)) := by
  after_results_simp; rfl
theorem cols_after0 : after (hostOps0 (F := F)) X (Proc.devRef .tc main_v3) = val_main_v3 (F := F) (X (Proc.devRef .tc main_arg1)) := by
  after_results_simp; rfl
theorem positive_after0 : after (hostOps0 (F := F)) X (Proc.devRef .tc main_v9) = val_main_v9 (F := F) (X (Proc.devRef .tc main_arg1)) := by
  after_results_simp; rfl
theorem rsqrt_after0 : after (hostOps0 (F := F)) X (Proc.devRef .tc main_v12) = val_main_v12 (F := F) (X (Proc.devRef .tc main_arg1)) := by
  after_results_simp; rfl
theorem zero_after0 : after (hostOps0 (F := F)) X (Proc.devRef .tc main_cst_3) = val_main_cst_3 (F := F) := by
  after_results_simp; rfl
theorem arg0_after0 : after (hostOps0 (F := F)) X (Proc.devRef .tc main_arg0) = X (Proc.devRef .tc main_arg0) := by after_results_simp
theorem arg1_after0 : after (hostOps0 (F := F)) X (Proc.devRef .tc main_arg1) = X (Proc.devRef .tc main_arg1) := by after_results_simp
theorem arg2_after0 : after (hostOps0 (F := F)) X (Proc.devRef .tc main_arg2) = X (Proc.devRef .tc main_arg2) := by after_results_simp
theorem arg3_after0 : after (hostOps0 (F := F)) X (Proc.devRef .tc main_arg3) = X (Proc.devRef .tc main_arg3) := by after_results_simp
theorem arg4_after0 : after (hostOps0 (F := F)) X (Proc.devRef .tc main_arg4) = X (Proc.devRef .tc main_arg4) := by after_results_simp
theorem arg5_after0 : after (hostOps0 (F := F)) X (Proc.devRef .tc main_arg5) = X (Proc.devRef .tc main_arg5) := by after_results_simp

/-! ## The second stretch: the inverse square root of the degree where it is positive, zero elsewhere -/

theorem dinv_after1 (x1 : (⟨S2x1600000, .i32⟩ : BufTy).Contents (Elt F))
    (h9 : X (Proc.devRef .tc main_v9) = val_main_v9 (F := F) x1) (h12 : X (Proc.devRef .tc main_v12) = val_main_v12 (F := F) x1)
    (hz : X (Proc.devRef .tc main_cst_3) = val_main_cst_3 (F := F)) :
    after (hostOps0_1 (F := F)) X (Proc.devRef .tc main_v13) = val_main_v13 (F := F) x1 := by
  after_results_simp
  rw [h9, h12, hz]
  rfl
theorem rows_after1 : after (hostOps0_1 (F := F)) X (Proc.devRef .tc main_v1) = X (Proc.devRef .tc main_v1) := by after_results_simp
theorem cols_after1 : after (hostOps0_1 (F := F)) X (Proc.devRef .tc main_v3) = X (Proc.devRef .tc main_v3) := by after_results_simp
theorem arg0_after1 : after (hostOps0_1 (F := F)) X (Proc.devRef .tc main_arg0) = X (Proc.devRef .tc main_arg0) := by after_results_simp
theorem arg1_after1 : after (hostOps0_1 (F := F)) X (Proc.devRef .tc main_arg1) = X (Proc.devRef .tc main_arg1) := by after_results_simp
theorem arg2_after1 : after (hostOps0_1 (F := F)) X (Proc.devRef .tc main_arg2) = X (Proc.devRef .tc main_arg2) := by after_results_simp
theorem arg3_after1 : after (hostOps0_1 (F := F)) X (Proc.devRef .tc main_arg3) = X (Proc.devRef .tc main_arg3) := by after_results_simp
theorem arg4_after1 : after (hostOps0_1 (F := F)) X (Proc.devRef .tc main_arg4) = X (Proc.devRef .tc main_arg4) := by after_results_simp
theorem arg5_after1 : after (hostOps0_1 (F := F)) X (Proc.devRef .tc main_arg5) = X (Proc.devRef .tc main_arg5) := by after_results_simp

/-! ## The third stretch: the edge weights and the first propagation -/

theorem weights_after2 (x1 : (⟨S2x1600000, .i32⟩ : BufTy).Contents (Elt F))
    (h13 : X (Proc.devRef .tc main_v13) = val_main_v13 (F := F) x1) (h1 : X (Proc.devRef .tc main_v1) = val_main_v1 (F := F) x1)
    (h3 : X (Proc.devRef .tc main_v3) = val_main_v3 (F := F) x1) :
    after (hostOps0_2 (F := F)) X (Proc.devRef .tc main_v29) = val_main_v29 (F := F) x1 := by
  after_results_simp
  rw [h13, h1, h3]
  rfl
theorem propagated_after2 (x0 : (⟨S100000x128, .f32⟩ : BufTy).Contents (Elt F)) (x1 : (⟨S2x1600000, .i32⟩ : BufTy).Contents (Elt F))
    (h13 : X (Proc.devRef .tc main_v13) = val_main_v13 (F := F) x1) (h1 : X (Proc.devRef .tc main_v1) = val_main_v1 (F := F) x1)
    (h3 : X (Proc.devRef .tc main_v3) = val_main_v3 (F := F) x1) (h0 : X (Proc.devRef .tc main_arg0) = x0) :
    after (hostOps0_2 (F := F)) X (Proc.devRef .tc main_v42) = val_main_v42 (F := F) x0 x1 := by
  after_results_simp
  rw [h13, h1, h3, h0]
  rfl
theorem bias_after2 : after (hostOps0_2 (F := F)) X (Proc.devRef .tc main_v43)
    = shapeCast S1x16 (X (Proc.devRef .tc main_arg3) : (⟨S16, .f32⟩ : BufTy).Contents (Elt F)) shapeCasts_S16_S1x16 := by
  after_results_simp; rfl
theorem rows_after2 : after (hostOps0_2 (F := F)) X (Proc.devRef .tc main_v1) = X (Proc.devRef .tc main_v1) := by after_results_simp
theorem cols_after2 : after (hostOps0_2 (F := F)) X (Proc.devRef .tc main_v3) = X (Proc.devRef .tc main_v3) := by after_results_simp
theorem arg0_after2 : after (hostOps0_2 (F := F)) X (Proc.devRef .tc main_arg0) = X (Proc.devRef .tc main_arg0) := by after_results_simp
theorem arg1_after2 : after (hostOps0_2 (F := F)) X (Proc.devRef .tc main_arg1) = X (Proc.devRef .tc main_arg1) := by after_results_simp
theorem arg2_after2 : after (hostOps0_2 (F := F)) X (Proc.devRef .tc main_arg2) = X (Proc.devRef .tc main_arg2) := by after_results_simp
theorem arg3_after2 : after (hostOps0_2 (F := F)) X (Proc.devRef .tc main_arg3) = X (Proc.devRef .tc main_arg3) := by after_results_simp
theorem arg4_after2 : after (hostOps0_2 (F := F)) X (Proc.devRef .tc main_arg4) = X (Proc.devRef .tc main_arg4) := by after_results_simp
theorem arg5_after2 : after (hostOps0_2 (F := F)) X (Proc.devRef .tc main_arg5) = X (Proc.devRef .tc main_arg5) := by after_results_simp

/-! ## The fourth stretch, between the launches: the second propagation, of the hidden features -/

theorem propagated_after3 (x0 : (⟨S100000x128, .f32⟩ : BufTy).Contents (Elt F)) (x1 : (⟨S2x1600000, .i32⟩ : BufTy).Contents (Elt F))
    (x2 : (⟨S2x128x16, .f32⟩ : BufTy).Contents (Elt F)) (x3 : (⟨S16, .f32⟩ : BufTy).Contents (Elt F))
    (hh : X (Proc.devRef .tc main_v44) = val_main_v53 (F := F) x0 x1 x2 x3)
    (hw : X (Proc.devRef .tc main_v29) = val_main_v29 (F := F) x1) (h1 : X (Proc.devRef .tc main_v1) = val_main_v1 (F := F) x1)
    (h3 : X (Proc.devRef .tc main_v3) = val_main_v3 (F := F) x1) :
    after (hostOps1 (F := F)) X (Proc.devRef .tc main_v57) = val_main_v66 (F := F) x0 x1 x2 x3 := by
  after_results_simp
  rw [hh, hw, h1, h3]
  rfl
theorem bias_after3 : after (hostOps1 (F := F)) X (Proc.devRef .tc main_v58)
    = shapeCast S1x128 (X (Proc.devRef .tc main_arg5) : (⟨S128, .f32⟩ : BufTy).Contents (Elt F)) shapeCasts_S128_S1x128 := by
  after_results_simp; rfl
theorem hidden_after3 : after (hostOps1 (F := F)) X (Proc.devRef .tc main_v44) = X (Proc.devRef .tc main_v44) := by after_results_simp
theorem arg4_after3 : after (hostOps1 (F := F)) X (Proc.devRef .tc main_arg4) = X (Proc.devRef .tc main_arg4) := by after_results_simp

end Cert.KernelIdeal.HostStages

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«130379_j67542655697471_1_alg».proof.Proof.LibRowLayers
import proofs.«130379_j67542655697471_1_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.HiddenValue.lean ====
/-
  The first dense launch: the hidden-layer array from its twenty blocks of 5000 nodes.

  At grid point `t` the kernel body reads rows `5000·t … 5000·t + 4999` of the node features and of the propagated
  features, the whole stack of two `[128, 16]` weight matrices and the `[1, 16]` bias row, and stores the rectified
  Chebyshev layer of each of its 5000 rows; the block is written back to the same rows of the `[100000, 16]` result.
  Row `p` of block `t` is therefore the hidden row of node `5000·t + p`, the twenty blocks tile the array, and the
  array ends holding the hidden layer of every node — for ANY contents the launch finds in its operand arrays.
-/
import proofs.«130379_j67542655697471_1_alg».proof.Proof.Gen.KernelIdeal.Frame
import proofs.«130379_j67542655697471_1_alg».proof.Proof.LibChebRows

set_option maxRecDepth 16384

noncomputable section

namespace Cert.KernelIdeal.Hidden

open Cert.KernelIdeal Cert.KernelIdeal.Gen
open Idealize.ShloMosaic Idealize.ShloMosaic.TcCoe Idealize.ShloMosaic.ValueIdx Idealize.SL.Sem
open Idealize.ShloMosaic.Pipeline (Dat)
open Cert.RowLayers Cert.ChebRows

/-! ## The body's stored value, row by row -/

/-- The first launch's product reads (row, contracted position) on the left and (contracted position, column) on the right. -/
theorem rowsTimesCols : RowsTimesCols dot_S5000x128_S128x16_S5000x16_1_0_0_1_n_n where
  rank := rfl
  size := rfl
  lhs0 := fun j q => by
    unfold DotDims.lhsIdx
    rw [dif_neg (show ¬(0 : Fin S5000x128.rank) ∈ dot_S5000x128_S128x16_S5000x16_1_0_0_1_n_n.lhsBatch by decide),
      dif_pos (show (0 : Fin S5000x128.rank) ∈ dot_S5000x128_S128x16_S5000x16_1_0_0_1_n_n.lhsNonContracting by decide)]
    rfl
  lhs1 := fun j q => dot_S5000x128_S128x16_S5000x16_1_0_0_1_n_n.lhsIdx_val_of_single rfl j q
  rhs0 := fun j q => dot_S5000x128_S128x16_S5000x16_1_0_0_1_n_n.rhsIdx_val_of_single rfl j q
  rhs1 := fun j q => by
    unfold DotDims.rhsIdx
    rw [dif_neg (show ¬(1 : Fin S128x16.rank) ∈ dot_S5000x128_S128x16_S5000x16_1_0_0_1_n_n.rhsBatch by decide),
      dif_pos (show (1 : Fin S128x16.rank) ∈ dot_S5000x128_S128x16_S5000x16_1_0_0_1_n_n.rhsNonContracting by decide)]
    rfl

/-- Plane `o` of the weight stack, loaded as a `[1, 128, 16]` piece at offset `(o, 0, 0)` and viewed `[128, 16]`, reads
    the stack at `(o, k, j)`. -/
theorem loaded_plane0 (x2 : Vec Ideal S2x128x16 .f32) (k : Fin 128) (j : Fin 16) :
    shapeCast S128x16 (View.ld x2 r0_1) shapeCasts_S1x128x16_S128x16 (ix2 k j) = plane x2 0 (ix2 k j) := by
  rw [shapeCast_1ab_ab_apply]
  show x2 (r0_1.idx (ix3 (0 : Fin 1) k j)) = x2 (ix3 (0 : Fin 2) k j)
  refine congrArg x2 (funext fun ax => Fin.ext ?_)
  match ax with
  | ⟨0, _⟩ => rfl
  | ⟨1, _⟩ => show 0 + 1 * k.val = k.val; omega
  | ⟨2, _⟩ => show 0 + 1 * j.val = j.val; omega

theorem loaded_plane1 (x2 : Vec Ideal S2x128x16 .f32) (k : Fin 128) (j : Fin 16) :
    shapeCast S128x16 (View.ld x2 r0_2) shapeCasts_S1x128x16_S128x16 (ix2 k j) = plane x2 1 (ix2 k j) := by
  rw [shapeCast_1ab_ab_apply]
  show x2 (r0_2.idx (ix3 (0 : Fin 1) k j)) = x2 (ix3 (1 : Fin 2) k j)
  refine congrArg x2 (funext fun ax => Fin.ext ?_)
  match ax with
  | ⟨0, _⟩ => rfl
  | ⟨1, _⟩ => show 0 + 1 * k.val = k.val; omega
  | ⟨2, _⟩ => show 0 + 1 * j.val = j.val; omega

/-- Row `p` of what the body stores: the rectified Chebyshev layer of rows `p` of its two input blocks. -/
theorem stored_row (x0 x1 : Vec Ideal S5000x128 .f32) (x2 : Vec Ideal S2x128x16 .f32) (x3 : Vec Ideal S1x16 .f32) (p : Fin 5000) :
    rowOf (k0_pay1 (F := Ideal) x0 x1 (View.ld x2 r0_1) (View.ld x2 r0_2) x3) p
      = relu (Ideal.ofBits .f32 0x00000000#32) (cheb (rowOf x0 p) (rowOf x1 p) (plane x2 0) (plane x2 1) (rowOf x3 0)) := by
  unfold k0_pay1
  dsimp only
  rw [rowOf_maximumf_splat, rowOf_cheb_device rowsTimesCols, shapeCast_self, shapeCast_self, shapeCast_self]
  show relu (Ideal.ofBits .f32 0x00000000#32) (cheb (rowOf x0 p) (rowOf x1 p) _ _ (rowOf x3 0)) = _
  exact congrArg (relu _) (cheb_congr _ _ _ (loaded_plane0 x2) (loaded_plane1 x2))

/-! ## The launch's blocks are rows of its arrays -/

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the twenty grid points: the two row-blocked inputs and the output are at block
    `(t, 0)`, the weight stack and the bias row at their one block. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The node whose row is row `p` of block `t`. -/
def node (t : Fin cfg0.N) (p : Fin 5000) : Fin 100000 :=
  ⟨t.val * 5000 + p.val, by have hN : cfg0.N = 20 := N_0; have := t.isLt; have := p.isLt; omega⟩

/-- The hidden layer of every node, from the contents the launch finds in its four operand arrays. -/
def hiddenArr (c : Dev nD) : S100000x16.Idx → EReal :=
  chebReluArr (Ideal.ofBits .f32 0x00000000#32) (V c main_arg0 : S100000x128.Idx → EReal) (V c main_v42 : S100000x128.Idx → EReal)
    (plane (V c main_arg2 : S2x128x16.Idx → EReal) 0) (plane (V c main_arg2 : S2x128x16.Idx → EReal) 1)
    (rowOf (V c main_v43 : S1x16.Idx → EReal) 0)

/-- Row `p` of the feature block at point `t` is the feature row of node `5000·t + p`. -/
theorem features_row (c : Dev nD) (t : Fin cfg0.N) (p : Fin 5000) :
    rowOf (iblk0 V c 0 t : S5000x128.Idx → EReal) p = rowOf (V c main_arg0 : S100000x128.Idx → EReal) (node t p) := by
  obtain ⟨e0, e1, -⟩ := idx_facts t
  funext k
  show V c main_arg0 (((cfg0.win 0).blk t).view.emb (ix2 p k)) = V c main_arg0 (ix2 (node t p) k)
  refine congrArg (V c main_arg0) (funext fun ax => Fin.ext ?_)
  match ax with
  | ⟨0, _⟩ => show win0_0.index t (0 : Fin 2) * 5000 + 1 * p.val = t.val * 5000 + p.val; omega
  | ⟨1, _⟩ => show win0_0.index t (1 : Fin 2) * 128 + 1 * k.val = k.val; omega

/-- The same for the block of propagated features. -/
theorem propagated_row (c : Dev nD) (t : Fin cfg0.N) (p : Fin 5000) :
    rowOf (iblk0 V c 1 t : S5000x128.Idx → EReal) p = rowOf (V c main_v42 : S100000x128.Idx → EReal) (node t p) := by
  obtain ⟨-, -, e0, e1, -⟩ := idx_facts t
  funext k
  show V c main_v42 (((cfg0.win 1).blk t).view.emb (ix2 p k)) = V c main_v42 (ix2 (node t p) k)
  refine congrArg (V c main_v42) (funext fun ax => Fin.ext ?_)
  match ax with
  | ⟨0, _⟩ => show win0_1.index t (0 : Fin 2) * 5000 + 1 * p.val = t.val * 5000 + p.val; omega
  | ⟨1, _⟩ => show win0_1.index t (1 : Fin 2) * 128 + 1 * k.val = k.val; omega

/-- The weight window's one block is the whole stack. -/
theorem weights_block (c : Dev nD) (t : Fin cfg0.N) :
    (iblk0 V c 2 t : S2x128x16.Idx → EReal) = (V c main_arg2 : S2x128x16.Idx → EReal) := by
  obtain ⟨-, -, -, -, e0, e1, e2, -⟩ := idx_facts t
  funext y
  show V c main_arg2 (((cfg0.win 2).blk t).view.emb y) = V c main_arg2 y
  refine congrArg (V c main_arg2) (funext fun ax => Fin.ext ?_)
  match ax with
  | ⟨0, _⟩ => show win0_2.index t (0 : Fin 3) * 2 + 1 * (y 0).val = (y 0).val; omega
  | ⟨1, _⟩ => show win0_2.index t (1 : Fin 3) * 128 + 1 * (y 1).val = (y 1).val; omega
  | ⟨2, _⟩ => show win0_2.index t (2 : Fin 3) * 16 + 1 * (y 2).val = (y 2).val; omega

/-- The bias window's one block is the whole bias row. -/
theorem bias_block (c : Dev nD) (t : Fin cfg0.N) :
    (iblk0 V c 3 t : S1x16.Idx → EReal) = (V c main_v43 : S1x16.Idx → EReal) := by
  obtain ⟨-, -, -, -, -, -, -, e0, e1, -⟩ := idx_facts t
  funext y
  show V c main_v43 (((cfg0.win 3).blk t).view.emb y) = V c main_v43 y
  refine congrArg (V c main_v43) (funext fun ax => Fin.ext ?_)
  match ax with
  | ⟨0, _⟩ => show win0_3.index t (0 : Fin 2) * 1 + 1 * (y 0).val = (y 0).val; omega
  | ⟨1, _⟩ => show win0_3.index t (1 : Fin 2) * 16 + 1 * (y 1).val = (y 1).val; omega

/-! ## What a point writes back, and the whole array -/

/-- WHAT POINT `t` WRITES BACK is block `t` of the hidden-layer array. -/
theorem flushed_eq (c : Dev nD) (t : Fin cfg0.N) :
    (dat0 V c).flushed 4 t = ((cfg0.win 4).blk t).view.read (Elt Ideal) (hiddenArr V c) := by
  show (cfg0.win 4).cut (grid0.coords t) ((dat0 V c).after 4 t) = _
  rw [after0_4]
  unfold out0_4
  rw [View.canon_unit_zero hz2]
  simp only [View.ld_unit_zero (S := S5000x128) hz2, View.ld_unit_zero (S := S1x16) hz2]
  obtain ⟨-, -, -, -, -, -, -, -, -, e0, e1⟩ := idx_facts t
  funext y
  obtain ⟨p, q, rfl⟩ : ∃ (p : Fin 5000) (q : Fin 16), y = ix2 p q := ⟨y 0, y 1, eq_ix2 y⟩
  have hemb : ((cfg0.win 4).blk t).view.emb (ix2 p q) = ix2 (node t p) q := funext fun ax => Fin.ext (by
    match ax with
    | ⟨0, _⟩ => show win0_4.index t (0 : Fin 2) * 5000 + 1 * p.val = t.val * 5000 + p.val; omega
    | ⟨1, _⟩ => show win0_4.index t (1 : Fin 2) * 16 + 1 * q.val = q.val; omega)
  show k0_pay1 (F := Ideal) (iblk0 V c 0 t) (iblk0 V c 1 t) (View.ld (iblk0 V c 2 t) r0_1) (View.ld (iblk0 V c 2 t) r0_2) (iblk0 V c 3 t) (ix2 p q)
      = hiddenArr V c (((cfg0.win 4).blk t).view.emb (ix2 p q))
  rw [hemb]
  refine (congrFun (stored_row (iblk0 V c 0 t) (iblk0 V c 1 t) (iblk0 V c 2 t) (iblk0 V c 3 t) p) q).trans ?_
  rw [features_row V c t p, propagated_row V c t p, weights_block V c t, bias_block V c t]
  rfl

/-- An index of the array is in point `t`'s block iff each coordinate is in the block's range on its axis. -/
theorem mem_blk (t : Fin cfg0.N) (i : S100000x16.Idx) :
    i ∈ ((cfg0.win 4).blk t).view.set ↔ ∀ a : Fin 2, win0_4.index t a * S5000x16.size a ≤ (i a).val ∧ (i a).val < win0_4.index t a * S5000x16.size a + S5000x16.size a := by
  show i ∈ ((View.whole main_v44).slice (win0_4.rect t)).set ↔ _
  rw [View.set_slice_whole, Rect.mem_set_unit]
  exact Iff.rfl

/-- The twenty blocks tile the array: node `r` is in block `r / 5000`. -/
theorem cover (i : S100000x16.Idx) : ∃ t : Fin cfg0.N, (cfg0.win 4).flush t = true ∧ i ∈ ((cfg0.win 4).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, -, -, -, e0, e1⟩ := idx_facts t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 16 ≤ (i 1).val ∧ (i 1).val < win0_4.index t (1 : Fin 2) * 16 + 16; omega

/-- THE ARRAY after the launch: the hidden layer of every node. -/
theorem final (c : Dev nD) : (dat0 V c).arrAt 4 cfg0.N = hiddenArr V c :=
  (dat0 V c).arrAt_eq_of_cover 4 (hiddenArr V c) (fun t _ => flushed_eq V c t) cover

end Cert.KernelIdeal.Hidden

end
-- ==== Proof.LibLogSoftmaxRows.lean ====
/-
  A row-wise log-softmax as each program prints it, read at an entry.

  Both programs shift an `[a, n]` array of logits by its row maxima, exponentiate, sum each row, take the logarithm and
  subtract: entry `(p, j)` of the result is `logSoftmax` of row `p` at `j`. The device reduces along the lanes from an
  accumulator, re-lays the `[a]` result as an `[a, 1]` column and broadcasts it back; the host reduces from an initial
  value, takes the maximum with a splat of that same value once more (which changes nothing: the fold already starts
  there), gives the result a trailing unit axis and broadcasts it back; its sum starts from the zero word, which is the
  extended real `0`. The shifted array and the two per-row terms are named once (`logSoftmax_of_parts`), and each
  program's spelling of them is read into that form.
-/
import proofs.«130379_j67542655697471_1_alg».proof.Proof.LibChebRows

noncomputable section

namespace Cert.ChebRows

open Idealize.ShloMosaic Idealize.ShloMosaic.ValueIdx Cert.RowLayers

variable {a n : ℕ}

/-- If `Mx` holds, all along row `q`, that row's maximum of `L`, and `Sx` the logarithm of the row's sum of
    exponentials of the shifted entries, then `(L − Mx) − Sx` is the log-softmax of `L`'s rows. -/
theorem logSoftmax_of_parts (z : EReal) (L Mx Sx : FVec Ideal ⟨2, ![a, n]⟩ .f32)
    (hMx : ∀ (q : Fin a) (k : Fin n), Mx (ix2 q k) = rowMax z (rowOf L q))
    (hSx : ∀ (q : Fin a) (k : Fin n), Sx (ix2 q k) = Ideal.log (∑ k' : Fin n, Ideal.exp (L (ix2 q k') - rowMax z (rowOf L q))))
    (p : Fin a) (j : Fin n) : subf (subf L Mx) Sx (ix2 p j) = logSoftmax z (rowOf L p) j := by
  show (L (ix2 p j) - Mx (ix2 p j)) - Sx (ix2 p j) = _
  rw [hMx, hSx]
  rfl

/-- The device's spelling. -/
theorem logSoftmax_device_apply (L : FVec Ideal ⟨2, ![a, n]⟩ .f32) (accM acc0 : BitVec 32)
    (hr : (⟨2, ![a, n]⟩ : Shape).Reduces [1] (⟨1, ![a]⟩ : Shape)) (hφ : FKind.Formats .f32)
    (hM : accM = FKind.maximumf.neutral .f32 hφ) (h0 : acc0 = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    subf (subf L (broadcastTo ⟨2, ![a, n]⟩ (shapeCast ⟨2, ![a, 1]⟩ (multiReduction .maximumf [1] ⟨1, ![a]⟩ L accM hr hφ hM) hc) hb))
         (broadcastTo ⟨2, ![a, n]⟩ (log (shapeCast ⟨2, ![a, 1]⟩ (multiReduction .add [1] ⟨1, ![a]⟩
             (exp (subf L (broadcastTo ⟨2, ![a, n]⟩ (shapeCast ⟨2, ![a, 1]⟩ (multiReduction .maximumf [1] ⟨1, ![a]⟩ L accM hr hφ hM) hc) hb)))
             acc0 hr hφ h0) hc)) hb) (ix2 p j)
      = logSoftmax (Ideal.ofBits .f32 accM) (rowOf L p) j := by
  have hMx : ∀ (q : Fin a) (k : Fin n),
      broadcastTo ⟨2, ![a, n]⟩ (shapeCast ⟨2, ![a, 1]⟩ (multiReduction .maximumf [1] ⟨1, ![a]⟩ L accM hr hφ hM) hc) hb (ix2 q k)
        = rowMax (Ideal.ofBits .f32 accM) (rowOf L q) := fun q k =>
    (column_device_apply _ hc hb q k).trans (multiReduction_max_row L accM hr hφ hM q)
  refine logSoftmax_of_parts _ L _ _ hMx (fun q k => ?_) p j
  refine (Cert.ColumnBroadcast.broadcastTo_a1_ab_apply _ hb q k).trans ?_
  show Ideal.log (shapeCast ⟨2, ![a, 1]⟩ _ hc (ix2 q (0 : Fin 1))) = _
  rw [shapeCast_a_a1_apply, multiReduction_add_row]
  refine congrArg Ideal.log (Finset.sum_congr rfl fun k' _ => ?_)
  show Ideal.exp (L (ix2 q k') - _) = _
  rw [hMx]

/-- The host's spelling. -/
theorem logSoftmax_host_apply (L : FVec Ideal ⟨2, ![a, n]⟩ .f32) (wM : BitVec 32)
    (h' : (⟨2, ![a, n]⟩ : Shape).ReducesTo [1] (⟨1, ![a]⟩ : Shape)) (hr : (⟨2, ![a, n]⟩ : Shape).Reduces [1] (⟨1, ![a]⟩ : Shape))
    (hu : 0 < (⟨0, ![]⟩ : Shape).numel)
    (hs : (⟨0, ![]⟩ : Shape).BroadcastsInDim ⟨1, ![a]⟩ (![] : Fin 0 → Fin 1))
    (h1 : (⟨1, ![a]⟩ : Shape).BroadcastsInDim ⟨2, ![a, 1]⟩ ![0]) (h2 : (⟨2, ![a, 1]⟩ : Shape).BroadcastsInDim ⟨2, ![a, n]⟩ ![0, 1])
    (p : Fin a) (j : Fin n) :
    subf (subf L (broadcastInDim ⟨2, ![a, n]⟩ ![0, 1] h2 (broadcastInDim ⟨2, ![a, 1]⟩ ![0] h1
            (maximumf (broadcastInDim ⟨1, ![a]⟩ ![] hs (constant (F := Ideal) ⟨0, ![]⟩ .f32 wM))
              (Host.reduce FloatOps.maximumf L (constant (F := Ideal) ⟨0, ![]⟩ .f32 wM) h' hu)))))
         (broadcastInDim ⟨2, ![a, n]⟩ ![0, 1] h2 (Host.log (broadcastInDim ⟨2, ![a, 1]⟩ ![0] h1
            (Host.reduceAdd (Host.exp (subf L (broadcastInDim ⟨2, ![a, n]⟩ ![0, 1] h2 (broadcastInDim ⟨2, ![a, 1]⟩ ![0] h1
                (maximumf (broadcastInDim ⟨1, ![a]⟩ ![] hs (constant (F := Ideal) ⟨0, ![]⟩ .f32 wM))
                  (Host.reduce FloatOps.maximumf L (constant (F := Ideal) ⟨0, ![]⟩ .f32 wM) h' hu))))))
              (constant (F := Ideal) ⟨0, ![]⟩ .f32 0x00000000#32) h' hu)))) (ix2 p j)
      = logSoftmax (Ideal.ofBits .f32 wM) (rowOf L p) j := by
  have hMx : ∀ (q : Fin a) (k : Fin n),
      broadcastInDim ⟨2, ![a, n]⟩ ![0, 1] h2 (broadcastInDim ⟨2, ![a, 1]⟩ ![0] h1
            (maximumf (broadcastInDim ⟨1, ![a]⟩ ![] hs (constant (F := Ideal) ⟨0, ![]⟩ .f32 wM))
              (Host.reduce FloatOps.maximumf L (constant (F := Ideal) ⟨0, ![]⟩ .f32 wM) h' hu))) (ix2 q k)
        = rowMax (Ideal.ofBits .f32 wM) (rowOf L q) := fun q k => by
    rw [lanes_host_apply, column_host_apply]
    show max (broadcastInDim ⟨1, ![a]⟩ ![] hs (constant (F := Ideal) ⟨0, ![]⟩ .f32 wM) (ix1 q))
        (Host.reduce FloatOps.maximumf L (constant (F := Ideal) ⟨0, ![]⟩ .f32 wM) h' hu (ix1 q)) = _
    rw [hostReduce_max_row L _ h' hr hu q,
      broadcastInDim_apply ![] hs (constant (F := Ideal) ⟨0, ![]⟩ .f32 wM) (ix1 q) ix0 (fun ax => ax.elim0)]
    exact max_rowMax _ _
  refine logSoftmax_of_parts _ L _ _ hMx (fun q k => ?_) p j
  rw [lanes_host_apply]
  refine (congrArg Ideal.log (column_host_apply _ h1 q (0 : Fin 1))).trans ?_
  rw [hostReduceAdd_row _ _ h' hr hu q]
  show Ideal.log (Ideal.ofBits .f32 0x00000000#32 + _) = _
  rw [Ideal.ofBits_zero_f32, zero_add]
  refine congrArg Ideal.log (Finset.sum_congr rfl fun k' _ => ?_)
  show Ideal.exp (L (ix2 q k') - _) = _
  rw [hMx]

end Cert.ChebRows

end
-- ==== Proof.OutputValue.lean ====
/-
  The second dense launch: the output array from its twenty blocks of 5000 nodes.

  At grid point `t` the body reads rows `5000·t … 5000·t + 4999` of the hidden features and of their propagation along
  the edges, the whole stack of two `[16, 128]` weight matrices and the `[1, 128]` bias row, and stores the log-softmax
  of the Chebyshev layer of each of its 5000 rows; the block is written back to the same rows of the `[100000, 128]`
  result. Entry `(p, q)` of block `t` is entry `q` of the output row of node `5000·t + p`, the twenty blocks tile the
  array, and the array ends holding the output layer of every node — for ANY contents the launch finds in its operands.
-/
import proofs.«130379_j67542655697471_1_alg».proof.Proof.Gen.KernelIdeal.Frame
import proofs.«130379_j67542655697471_1_alg».proof.Proof.LibLogSoftmaxRows

set_option maxRecDepth 16384

noncomputable section

namespace Cert.KernelIdeal.Output

open Cert.KernelIdeal Cert.KernelIdeal.Gen
open Idealize.ShloMosaic Idealize.ShloMosaic.TcCoe Idealize.ShloMosaic.ValueIdx Idealize.SL.Sem
open Idealize.ShloMosaic.Pipeline (Dat)
open Cert.RowLayers Cert.ChebRows

/-! ## The body's stored value, entry by entry -/

/-- The second launch's product reads (row, contracted position) on the left and (contracted position, column) on the right. -/
theorem rowsTimesCols : RowsTimesCols dot_S5000x16_S16x128_S5000x128_1_0_0_1_n_n where
  rank := rfl
  size := rfl
  lhs0 := fun j q => by
    unfold DotDims.lhsIdx
    rw [dif_neg (show ¬(0 : Fin S5000x16.rank) ∈ dot_S5000x16_S16x128_S5000x128_1_0_0_1_n_n.lhsBatch by decide),
      dif_pos (show (0 : Fin S5000x16.rank) ∈ dot_S5000x16_S16x128_S5000x128_1_0_0_1_n_n.lhsNonContracting by decide)]
    rfl
  lhs1 := fun j q => dot_S5000x16_S16x128_S5000x128_1_0_0_1_n_n.lhsIdx_val_of_single rfl j q
  rhs0 := fun j q => dot_S5000x16_S16x128_S5000x128_1_0_0_1_n_n.rhsIdx_val_of_single rfl j q
  rhs1 := fun j q => by
    unfold DotDims.rhsIdx
    rw [dif_neg (show ¬(1 : Fin S16x128.rank) ∈ dot_S5000x16_S16x128_S5000x128_1_0_0_1_n_n.rhsBatch by decide),
      dif_pos (show (1 : Fin S16x128.rank) ∈ dot_S5000x16_S16x128_S5000x128_1_0_0_1_n_n.rhsNonContracting by decide)]
    rfl

/-- Plane `o` of the weight stack, loaded as a `[1, 16, 128]` piece at offset `(o, 0, 0)` and viewed `[16, 128]`, reads
    the stack at `(o, k, j)`. -/
theorem loaded_plane0 (x2 : Vec Ideal S2x16x128 .f32) (k : Fin 16) (j : Fin 128) :
    shapeCast S16x128 (View.ld x2 r1_1) shapeCasts_S1x16x128_S16x128 (ix2 k j) = plane x2 0 (ix2 k j) := by
  rw [shapeCast_1ab_ab_apply]
  show x2 (r1_1.idx (ix3 (0 : Fin 1) k j)) = x2 (ix3 (0 : Fin 2) k j)
  refine congrArg x2 (funext fun ax => Fin.ext ?_)
  match ax with
  | ⟨0, _⟩ => rfl
  | ⟨1, _⟩ => show 0 + 1 * k.val = k.val; omega
  | ⟨2, _⟩ => show 0 + 1 * j.val = j.val; omega

theorem loaded_plane1 (x2 : Vec Ideal S2x16x128 .f32) (k : Fin 16) (j : Fin 128) :
    shapeCast S16x128 (View.ld x2 r1_2) shapeCasts_S1x16x128_S16x128 (ix2 k j) = plane x2 1 (ix2 k j) := by
  rw [shapeCast_1ab_ab_apply]
  show x2 (r1_2.idx (ix3 (0 : Fin 1) k j)) = x2 (ix3 (1 : Fin 2) k j)
  refine congrArg x2 (funext fun ax => Fin.ext ?_)
  match ax with
  | ⟨0, _⟩ => rfl
  | ⟨1, _⟩ => show 0 + 1 * k.val = k.val; omega
  | ⟨2, _⟩ => show 0 + 1 * j.val = j.val; omega

/-- Entry `(p, q)` of what the body stores: the log-softmax of the Chebyshev layer of rows `p` of its two input blocks, at `q`. -/
theorem stored_entry (x0 x1 : Vec Ideal S5000x16 .f32) (x2 : Vec Ideal S2x16x128 .f32) (x3 : Vec Ideal S1x128 .f32)
    (p : Fin 5000) (q : Fin 128) :
    k1_pay1 (F := Ideal) x0 x1 (View.ld x2 r1_1) (View.ld x2 r1_2) x3 (ix2 p q)
      = logSoftmax (Ideal.ofBits .f32 0xFF800000#32) (cheb (rowOf x0 p) (rowOf x1 p) (plane x2 0) (plane x2 1) (rowOf x3 0)) q := by
  unfold k1_pay1
  dsimp only
  refine (logSoftmax_device_apply _ _ _ _ _ _ _ _ _ p q).trans ?_
  rw [rowOf_cheb_device rowsTimesCols, shapeCast_self, shapeCast_self, shapeCast_self, shapeCast_self]
  exact congrFun (congrArg (logSoftmax _) (cheb_congr _ _ _ (loaded_plane0 x2) (loaded_plane1 x2))) q

/-! ## The launch's blocks are rows of its arrays -/

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the twenty grid points. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The node whose row is row `p` of block `t`. -/
def node (t : Fin cfg1.N) (p : Fin 5000) : Fin 100000 :=
  ⟨t.val * 5000 + p.val, by have hN : cfg1.N = 20 := N_1; have := t.isLt; have := p.isLt; omega⟩

/-- The output layer of every node, from the contents the launch finds in its four operand arrays. -/
def outputArr (c : Dev nD) : S100000x128.Idx → EReal :=
  chebLogSoftmaxArr (Ideal.ofBits .f32 0xFF800000#32) (V c main_v44 : S100000x16.Idx → EReal) (V c main_v57 : S100000x16.Idx → EReal)
    (plane (V c main_arg4 : S2x16x128.Idx → EReal) 0) (plane (V c main_arg4 : S2x16x128.Idx → EReal) 1)
    (rowOf (V c main_v58 : S1x128.Idx → EReal) 0)

theorem hidden_row (c : Dev nD) (t : Fin cfg1.N) (p : Fin 5000) :
    rowOf (iblk1 V c 0 t : S5000x16.Idx → EReal) p = rowOf (V c main_v44 : S100000x16.Idx → EReal) (node t p) := by
  obtain ⟨e0, e1, -⟩ := idx_facts t
  funext k
  show V c main_v44 (((cfg1.win 0).blk t).view.emb (ix2 p k)) = V c main_v44 (ix2 (node t p) k)
  refine congrArg (V c main_v44) (funext fun ax => Fin.ext ?_)
  match ax with
  | ⟨0, _⟩ => show win1_0.index t (0 : Fin 2) * 5000 + 1 * p.val = t.val * 5000 + p.val; omega
  | ⟨1, _⟩ => show win1_0.index t (1 : Fin 2) * 16 + 1 * k.val = k.val; omega

theorem propagated_row (c : Dev nD) (t : Fin cfg1.N) (p : Fin 5000) :
    rowOf (iblk1 V c 1 t : S5000x16.Idx → EReal) p = rowOf (V c main_v57 : S100000x16.Idx → EReal) (node t p) := by
  obtain ⟨-, -, e0, e1, -⟩ := idx_facts t
  funext k
  show V c main_v57 (((cfg1.win 1).blk t).view.emb (ix2 p k)) = V c main_v57 (ix2 (node t p) k)
  refine congrArg (V c main_v57) (funext fun ax => Fin.ext ?_)
  match ax with
  | ⟨0, _⟩ => show win1_1.index t (0 : Fin 2) * 5000 + 1 * p.val = t.val * 5000 + p.val; omega
  | ⟨1, _⟩ => show win1_1.index t (1 : Fin 2) * 16 + 1 * k.val = k.val; omega

theorem weights_block (c : Dev nD) (t : Fin cfg1.N) :
    (iblk1 V c 2 t : S2x16x128.Idx → EReal) = (V c main_arg4 : S2x16x128.Idx → EReal) := by
  obtain ⟨-, -, -, -, e0, e1, e2, -⟩ := idx_facts t
  funext y
  show V c main_arg4 (((cfg1.win 2).blk t).view.emb y) = V c main_arg4 y
  refine congrArg (V c main_arg4) (funext fun ax => Fin.ext ?_)
  match ax with
  | ⟨0, _⟩ => show win1_2.index t (0 : Fin 3) * 2 + 1 * (y 0).val = (y 0).val; omega
  | ⟨1, _⟩ => show win1_2.index t (1 : Fin 3) * 16 + 1 * (y 1).val = (y 1).val; omega
  | ⟨2, _⟩ => show win1_2.index t (2 : Fin 3) * 128 + 1 * (y 2).val = (y 2).val; omega

theorem bias_block (c : Dev nD) (t : Fin cfg1.N) :
    (iblk1 V c 3 t : S1x128.Idx → EReal) = (V c main_v58 : S1x128.Idx → EReal) := by
  obtain ⟨-, -, -, -, -, -, -, e0, e1, -⟩ := idx_facts t
  funext y
  show V c main_v58 (((cfg1.win 3).blk t).view.emb y) = V c main_v58 y
  refine congrArg (V c main_v58) (funext fun ax => Fin.ext ?_)
  match ax with
  | ⟨0, _⟩ => show win1_3.index t (0 : Fin 2) * 1 + 1 * (y 0).val = (y 0).val; omega
  | ⟨1, _⟩ => show win1_3.index t (1 : Fin 2) * 128 + 1 * (y 1).val = (y 1).val; omega

/-! ## What a point writes back, and the whole array -/

/-- WHAT POINT `t` WRITES BACK is block `t` of the output array. -/
theorem flushed_eq (c : Dev nD) (t : Fin cfg1.N) :
    (dat1 V c).flushed 4 t = ((cfg1.win 4).blk t).view.read (Elt Ideal) (outputArr V c) := by
  show (cfg1.win 4).cut (grid1.coords t) ((dat1 V c).after 4 t) = _
  rw [after1_4]
  unfold out1_4
  rw [View.canon_unit_zero hz2]
  simp only [View.ld_unit_zero (S := S5000x16) hz2, View.ld_unit_zero (S := S1x128) hz2]
  obtain ⟨-, -, -, -, -, -, -, -, -, e0, e1⟩ := idx_facts t
  funext y
  obtain ⟨p, q, rfl⟩ : ∃ (p : Fin 5000) (q : Fin 128), y = ix2 p q := ⟨y 0, y 1, eq_ix2 y⟩
  have hemb : ((cfg1.win 4).blk t).view.emb (ix2 p q) = ix2 (node t p) q := funext fun ax => Fin.ext (by
    match ax with
    | ⟨0, _⟩ => show win1_4.index t (0 : Fin 2) * 5000 + 1 * p.val = t.val * 5000 + p.val; omega
    | ⟨1, _⟩ => show win1_4.index t (1 : Fin 2) * 128 + 1 * q.val = q.val; omega)
  show k1_pay1 (F := Ideal) (iblk1 V c 0 t) (iblk1 V c 1 t) (View.ld (iblk1 V c 2 t) r1_1) (View.ld (iblk1 V c 2 t) r1_2) (iblk1 V c 3 t) (ix2 p q)
      = outputArr V c (((cfg1.win 4).blk t).view.emb (ix2 p q))
  rw [hemb]
  refine (stored_entry (iblk1 V c 0 t) (iblk1 V c 1 t) (iblk1 V c 2 t) (iblk1 V c 3 t) p q).trans ?_
  rw [hidden_row V c t p, propagated_row V c t p, weights_block V c t, bias_block V c t]
  rfl

/-- An index of the array is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v59).slice (win1_4.rect t)).set ↔ _
  rw [View.set_slice_whole, Rect.mem_set_unit]
  exact Iff.rfl

/-- The twenty blocks tile the array: node `r` is in block `r / 5000`. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, -, -, -, -, e0, e1⟩ := idx_facts t
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE ARRAY after the launch: the output layer of every node. -/
theorem final (c : Dev nD) : (dat1 V c).arrAt 4 cfg1.N = outputArr V c :=
  (dat1 V c).arrAt_eq_of_cover 4 (outputArr V c) (fun t _ => flushed_eq V c t) cover

end Cert.KernelIdeal.Output

end
-- ==== Proof.RefLayers.lean ====
/-
  The reference's two dense layers as row functions.

  On the host the reference computes, for the whole `[100000, ·]` arrays at once, what the kernel computes block by
  block: `relu (x·W₁[0] + (L̂x)·W₁[1] + b₁)` and `log_softmax (h·W₂[0] + (L̂h)·W₂[1] + b₂)`, the weight planes taken by a
  slice and a reshape, the bias given a unit axis and broadcast. Row by row these are the rectified Chebyshev layer and
  the log-softmax of the Chebyshev layer of the inputs' rows, whatever the propagated features `L̂x`, `L̂h` are (they
  enter only as arrays).
-/
import proofs.«130379_j67542655697471_1_alg».proof.Proof.RefReadP
import proofs.«130379_j67542655697471_1_alg».proof.Proof.LibLogSoftmaxRows

set_option maxRecDepth 16384

noncomputable section

namespace Cert.ReferenceIdeal.Layers

open Cert.ReferenceIdeal Cert.ReferenceIdeal.Gen Cert.ReferenceIdeal.ReadP
open Idealize.ShloMosaic Idealize.ShloMosaic.TcCoe Idealize.ShloMosaic.ValueIdx Idealize.SL.Sem
open Cert.RowLayers Cert.ChebRows

/-- The first layer's products read (row, contracted position) on the left and (contracted position, column) on the right. -/
theorem rowsTimesCols1 : RowsTimesCols dot_S100000x128_S128x16_S100000x16_1_0_0_1_n_n where
  rank := rfl
  size := rfl
  lhs0 := lhs_main_v45_0
  lhs1 := lhs_main_v45_1
  rhs0 := rhs_main_v45_0
  rhs1 := rhs_main_v45_1

/-- The second layer's likewise. -/
theorem rowsTimesCols2 : RowsTimesCols dot_S100000x16_S16x128_S100000x128_1_0_0_1_n_n where
  rank := rfl
  size := rfl
  lhs0 := lhs_main_v69_0
  lhs1 := lhs_main_v69_1
  rhs0 := rhs_main_v69_0
  rhs1 := rhs_main_v69_1

/-! ## The weight planes: a slice of the stack, reshaped -/

theorem plane0_w1 (x2 : (⟨S2x128x16, .f32⟩ : BufTy).Contents (Elt Ideal)) (k : Fin 128) (j : Fin 16) :
    val_main_v44 (F := Ideal) x2 (ix2 k j) = plane x2 0 (ix2 k j) := by
  unfold val_main_v44 val_main_v43
  rw [shapeCast_1ab_ab_apply]
  exact extractStridedSlice_apply ![0, 0, 0] x2 slices_S2x128x16_S1x128x16_0_0_0 (ix3 (0 : Fin 1) k j) (ix3 (0 : Fin 2) k j) (fun a => by
    match a with
    | ⟨0, _⟩ => rfl
    | ⟨1, _⟩ => show k.val = 0 + k.val; omega
    | ⟨2, _⟩ => show j.val = 0 + j.val; omega)

theorem plane1_w1 (x2 : (⟨S2x128x16, .f32⟩ : BufTy).Contents (Elt Ideal)) (k : Fin 128) (j : Fin 16) :
    val_main_v47 (F := Ideal) x2 (ix2 k j) = plane x2 1 (ix2 k j) := by
  unfold val_main_v47 val_main_v46
  rw [shapeCast_1ab_ab_apply]
  exact extractStridedSlice_apply ![1, 0, 0] x2 slices_S2x128x16_S1x128x16_1_0_0 (ix3 (0 : Fin 1) k j) (ix3 (1 : Fin 2) k j) (fun a => by
    match a with
    | ⟨0, _⟩ => rfl
    | ⟨1, _⟩ => show k.val = 0 + k.val; omega
    | ⟨2, _⟩ => show j.val = 0 + j.val; omega)

theorem plane0_w2 (x4 : (⟨S2x16x128, .f32⟩ : BufTy).Contents (Elt Ideal)) (k : Fin 16) (j : Fin 128) :
    val_main_v68 (F := Ideal) x4 (ix2 k j) = plane x4 0 (ix2 k j) := by
  unfold val_main_v68 val_main_v67
  rw [shapeCast_1ab_ab_apply]
  exact extractStridedSlice_apply ![0, 0, 0] x4 slices_S2x16x128_S1x16x128_0_0_0 (ix3 (0 : Fin 1) k j) (ix3 (0 : Fin 2) k j) (fun a => by
    match a with
    | ⟨0, _⟩ => rfl
    | ⟨1, _⟩ => show k.val = 0 + k.val; omega
    | ⟨2, _⟩ => show j.val = 0 + j.val; omega)

theorem plane1_w2 (x4 : (⟨S2x16x128, .f32⟩ : BufTy).Contents (Elt Ideal)) (k : Fin 16) (j : Fin 128) :
    val_main_v71 (F := Ideal) x4 (ix2 k j) = plane x4 1 (ix2 k j) := by
  unfold val_main_v71 val_main_v70
  rw [shapeCast_1ab_ab_apply]
  exact extractStridedSlice_apply ![1, 0, 0] x4 slices_S2x16x128_S1x16x128_1_0_0 (ix3 (0 : Fin 1) k j) (ix3 (1 : Fin 2) k j) (fun a => by
    match a with
    | ⟨0, _⟩ => rfl
    | ⟨1, _⟩ => show k.val = 0 + k.val; omega
    | ⟨2, _⟩ => show j.val = 0 + j.val; omega)

/-! ## The layers -/

/-- The reference's hidden features: the rectified Chebyshev layer of every node's row of `x` and of the first propagation. -/
theorem hidden_eq (x0 : (⟨S100000x128, .f32⟩ : BufTy).Contents (Elt Ideal)) (x1 : (⟨S2x1600000, .i32⟩ : BufTy).Contents (Elt Ideal))
    (x2 : (⟨S2x128x16, .f32⟩ : BufTy).Contents (Elt Ideal)) (x3 : (⟨S16, .f32⟩ : BufTy).Contents (Elt Ideal)) :
    val_main_v53 (F := Ideal) x0 x1 x2 x3
      = chebReluArr (Ideal.ofBits .f32 0x00000000#32) x0 (val_main_v42 (F := Ideal) x0 x1) (plane x2 0) (plane x2 1) (fun j => x3 (ix1 j)) := by
  refine eq_chebReluArr_of_rows _ _ _ _ _ _ _ (fun p => ?_)
  unfold val_main_v53 val_main_call1_v0 val_main_call1_cst val_main_v52 val_main_v49 val_main_v45 val_main_v48 val_main_v51 val_main_v50
  rw [rowOf_maximumf_const, rowOf_cheb_host rowsTimesCols1]
  exact congrArg (relu _) (cheb_congr _ _ _ (plane0_w1 x2) (plane1_w1 x2))

/-- The reference's result: the log-softmax of the Chebyshev layer of every node's hidden row and of the second propagation. -/
theorem output_eq (x0 : (⟨S100000x128, .f32⟩ : BufTy).Contents (Elt Ideal)) (x1 : (⟨S2x1600000, .i32⟩ : BufTy).Contents (Elt Ideal))
    (x2 : (⟨S2x128x16, .f32⟩ : BufTy).Contents (Elt Ideal)) (x3 : (⟨S16, .f32⟩ : BufTy).Contents (Elt Ideal))
    (x4 : (⟨S2x16x128, .f32⟩ : BufTy).Contents (Elt Ideal)) (x5 : (⟨S128, .f32⟩ : BufTy).Contents (Elt Ideal)) :
    val_main_v77 (F := Ideal) x0 x1 x2 x3 x4 x5
      = chebLogSoftmaxArr (Ideal.ofBits .f32 0xFF800000#32) (val_main_v53 (F := Ideal) x0 x1 x2 x3) (val_main_v66 (F := Ideal) x0 x1 x2 x3)
          (plane x4 0) (plane x4 1) (fun j => x5 (ix1 j)) := by
  refine eq_chebLogSoftmaxArr_of_entries _ _ _ _ _ _ _ (fun p q => ?_)
  unfold val_main_v77 val_main_call2_v10 val_main_call2_v9 val_main_call2_v8 val_main_call2_v7 val_main_call2_cst_1 val_main_call2_v6
    val_main_call2_v5 val_main_call2_v4 val_main_call2_v3 val_main_call2_v2 val_main_call2_v1 val_main_call2_cst_0 val_main_call2_v0
    val_main_call2_cst
  rw [logSoftmax_host_apply _ _ _ (by decide)]
  unfold val_main_v76 val_main_v73 val_main_v69 val_main_v72 val_main_v75 val_main_v74
  rw [rowOf_cheb_host rowsTimesCols2]
  exact congrFun (congrArg (logSoftmax _) (cheb_congr _ _ _ (plane0_w2 x4) (plane1_w2 x4))) q

end Cert.ReferenceIdeal.Layers

end
-- ==== Proof.KernelValue.lean ====
/-
  The idealized kernel's result buffer, from the launch memory.

  The buffer contents at @main's segment boundaries are chained from the launch memory: the three host stretches leave
  the index vectors, the inverse square roots of the degrees, the edge weights and the first propagation (the
  reference's stages of the argument arrays), and the bias re-laid as a row; the first launch leaves the hidden layer
  of every node, which is the reference's hidden stage; the fourth stretch leaves the second propagation and the second
  bias row; the second launch leaves the output layer of every node, which is the reference's last stage. So the result
  buffer ends at the reference's result stage `val_main_v77` of the kernel's own six argument arrays.
-/
import proofs.«130379_j67542655697471_1_alg».proof.Proof.KernelRun
import proofs.«130379_j67542655697471_1_alg».proof.Proof.KernelHost
import proofs.«130379_j67542655697471_1_alg».proof.Proof.HiddenValue
import proofs.«130379_j67542655697471_1_alg».proof.Proof.OutputValue
import proofs.«130379_j67542655697471_1_alg».proof.Proof.RefLayers

set_option maxRecDepth 16384

noncomputable section

namespace Cert.KernelIdeal.Result

open Cert.KernelIdeal Cert.KernelIdeal.Gen Cert.KernelIdeal.HostStages
open Idealize.ShloMosaic Idealize.ShloMosaic.TcCoe Idealize.ShloMosaic.ValueIdx Idealize.SL.Sem Idealize.ShloMosaic.StableHlo
open Cert.RowLayers Cert.ChebRows
open Cert.ReferenceIdeal.ReadP (val_main_v1 val_main_v3 val_main_v9 val_main_v12 val_main_cst_3 val_main_v13 val_main_v29 val_main_v42
  val_main_v53 val_main_v66 val_main_v77)

variable (m : (ℓ : Loc nD τ sig) → Buf (Elt Ideal) ℓ) (ρ : Dev nD → PrngReg) (c : Dev nD)

/-- A `[b]` vector re-laid as a `[1, b]` row: its one row is the vector. -/
theorem row_of_reshaped {b : ℕ} (x : (⟨1, ![b]⟩ : Shape).Idx → EReal) (h : (⟨1, ![b]⟩ : Shape).ShapeCasts ⟨2, ![1, b]⟩) :
    rowOf (shapeCast ⟨2, ![1, b]⟩ x h) 0 = fun j => x (ix1 j) :=
  funext fun j => shapeCast_a_1a_apply x h 0 j

/-! ## After the second stretch -/

theorem w2_dinv : W2 (F := Ideal) m ρ c (Proc.devRef .tc main_v13) = val_main_v13 (F := Ideal) (m ((c : Thread nD τ).loc main_arg1)) :=
  dinv_after1 (W1 m ρ c) _ (positive_after0 (W0 m ρ c)) (rsqrt_after0 (W0 m ρ c)) (zero_after0 (W0 m ρ c))
theorem w2_rows : W2 (F := Ideal) m ρ c (Proc.devRef .tc main_v1) = val_main_v1 (F := Ideal) (m ((c : Thread nD τ).loc main_arg1)) :=
  (rows_after1 (W1 m ρ c)).trans (rows_after0 (W0 m ρ c))
theorem w2_cols : W2 (F := Ideal) m ρ c (Proc.devRef .tc main_v3) = val_main_v3 (F := Ideal) (m ((c : Thread nD τ).loc main_arg1)) :=
  (cols_after1 (W1 m ρ c)).trans (cols_after0 (W0 m ρ c))
theorem w2_arg0 : W2 (F := Ideal) m ρ c (Proc.devRef .tc main_arg0) = (m ((c : Thread nD τ).loc main_arg0)) := (arg0_after1 (W1 m ρ c)).trans (arg0_after0 (W0 m ρ c))
theorem w2_arg2 : W2 (F := Ideal) m ρ c (Proc.devRef .tc main_arg2) = (m ((c : Thread nD τ).loc main_arg2)) := (arg2_after1 (W1 m ρ c)).trans (arg2_after0 (W0 m ρ c))
theorem w2_arg3 : W2 (F := Ideal) m ρ c (Proc.devRef .tc main_arg3) = (m ((c : Thread nD τ).loc main_arg3)) := (arg3_after1 (W1 m ρ c)).trans (arg3_after0 (W0 m ρ c))
theorem w2_arg4 : W2 (F := Ideal) m ρ c (Proc.devRef .tc main_arg4) = (m ((c : Thread nD τ).loc main_arg4)) := (arg4_after1 (W1 m ρ c)).trans (arg4_after0 (W0 m ρ c))
theorem w2_arg5 : W2 (F := Ideal) m ρ c (Proc.devRef .tc main_arg5) = (m ((c : Thread nD τ).loc main_arg5)) := (arg5_after1 (W1 m ρ c)).trans (arg5_after0 (W0 m ρ c))

/-! ## At the first launch's entry -/

theorem v3_features : V3 (F := Ideal) m ρ c main_arg0 = (m ((c : Thread nD τ).loc main_arg0)) := (arg0_after2 (W2 m ρ c)).trans (w2_arg0 m ρ c)
theorem v3_weights1 : V3 (F := Ideal) m ρ c main_arg2 = (m ((c : Thread nD τ).loc main_arg2)) := (arg2_after2 (W2 m ρ c)).trans (w2_arg2 m ρ c)
theorem v3_propagated : V3 (F := Ideal) m ρ c main_v42 = val_main_v42 (F := Ideal) (m ((c : Thread nD τ).loc main_arg0)) (m ((c : Thread nD τ).loc main_arg1)) :=
  propagated_after2 (W2 m ρ c) _ _ (w2_dinv m ρ c) (w2_rows m ρ c) (w2_cols m ρ c) (w2_arg0 m ρ c)
theorem v3_bias : V3 (F := Ideal) m ρ c main_v43 = shapeCast S1x16 (m ((c : Thread nD τ).loc main_arg3)) shapeCasts_S16_S1x16 :=
  (bias_after2 (W2 m ρ c)).trans (by rw [w2_arg3])
theorem w3_edge_weights : W3 (F := Ideal) m ρ c (Proc.devRef .tc main_v29) = val_main_v29 (F := Ideal) (m ((c : Thread nD τ).loc main_arg1)) :=
  weights_after2 (W2 m ρ c) _ (w2_dinv m ρ c) (w2_rows m ρ c) (w2_cols m ρ c)
theorem w3_rows : W3 (F := Ideal) m ρ c (Proc.devRef .tc main_v1) = val_main_v1 (F := Ideal) (m ((c : Thread nD τ).loc main_arg1)) := (rows_after2 (W2 m ρ c)).trans (w2_rows m ρ c)
theorem w3_cols : W3 (F := Ideal) m ρ c (Proc.devRef .tc main_v3) = val_main_v3 (F := Ideal) (m ((c : Thread nD τ).loc main_arg1)) := (cols_after2 (W2 m ρ c)).trans (w2_cols m ρ c)
theorem w3_arg4 : W3 (F := Ideal) m ρ c (Proc.devRef .tc main_arg4) = (m ((c : Thread nD τ).loc main_arg4)) := (arg4_after2 (W2 m ρ c)).trans (w2_arg4 m ρ c)
theorem w3_arg5 : W3 (F := Ideal) m ρ c (Proc.devRef .tc main_arg5) = (m ((c : Thread nD τ).loc main_arg5)) := (arg5_after2 (W2 m ρ c)).trans (w2_arg5 m ρ c)

/-! ## After the first launch -/

/-- The first launch leaves the reference's hidden stage in its result array. -/
theorem w4_hidden : W4 (F := Ideal) m ρ c (Proc.devRef .tc main_v44) = val_main_v53 (F := Ideal) (m ((c : Thread nD τ).loc main_arg0)) (m ((c : Thread nD τ).loc main_arg1)) (m ((c : Thread nD τ).loc main_arg2)) (m ((c : Thread nD τ).loc main_arg3)) := by
  refine (W4_arr m ρ c 4).trans ((Cert.KernelIdeal.Hidden.final (V3 m ρ) c).trans ?_)
  unfold Cert.KernelIdeal.Hidden.hiddenArr
  rw [v3_features, v3_propagated, v3_weights1, v3_bias, row_of_reshaped, Cert.ReferenceIdeal.Layers.hidden_eq]
theorem w4_edge_weights : W4 (F := Ideal) m ρ c (Proc.devRef .tc main_v29) = val_main_v29 (F := Ideal) (m ((c : Thread nD τ).loc main_arg1)) :=
  (W4_of_ne m ρ c main_v29 (by decide)).trans (w3_edge_weights m ρ c)
theorem w4_rows : W4 (F := Ideal) m ρ c (Proc.devRef .tc main_v1) = val_main_v1 (F := Ideal) (m ((c : Thread nD τ).loc main_arg1)) :=
  (W4_of_ne m ρ c main_v1 (by decide)).trans (w3_rows m ρ c)
theorem w4_cols : W4 (F := Ideal) m ρ c (Proc.devRef .tc main_v3) = val_main_v3 (F := Ideal) (m ((c : Thread nD τ).loc main_arg1)) :=
  (W4_of_ne m ρ c main_v3 (by decide)).trans (w3_cols m ρ c)
theorem w4_arg4 : W4 (F := Ideal) m ρ c (Proc.devRef .tc main_arg4) = (m ((c : Thread nD τ).loc main_arg4)) := (W4_of_ne m ρ c main_arg4 (by decide)).trans (w3_arg4 m ρ c)
theorem w4_arg5 : W4 (F := Ideal) m ρ c (Proc.devRef .tc main_arg5) = (m ((c : Thread nD τ).loc main_arg5)) := (W4_of_ne m ρ c main_arg5 (by decide)).trans (w3_arg5 m ρ c)

/-! ## At the second launch's entry -/

theorem v5_hidden : V5 (F := Ideal) m ρ c main_v44 = val_main_v53 (F := Ideal) (m ((c : Thread nD τ).loc main_arg0)) (m ((c : Thread nD τ).loc main_arg1)) (m ((c : Thread nD τ).loc main_arg2)) (m ((c : Thread nD τ).loc main_arg3)) := (hidden_after3 (W4 m ρ c)).trans (w4_hidden m ρ c)
theorem v5_propagated : V5 (F := Ideal) m ρ c main_v57 = val_main_v66 (F := Ideal) (m ((c : Thread nD τ).loc main_arg0)) (m ((c : Thread nD τ).loc main_arg1)) (m ((c : Thread nD τ).loc main_arg2)) (m ((c : Thread nD τ).loc main_arg3)) :=
  propagated_after3 (W4 m ρ c) _ _ _ _ (w4_hidden m ρ c) (w4_edge_weights m ρ c) (w4_rows m ρ c) (w4_cols m ρ c)
theorem v5_weights2 : V5 (F := Ideal) m ρ c main_arg4 = (m ((c : Thread nD τ).loc main_arg4)) := (arg4_after3 (W4 m ρ c)).trans (w4_arg4 m ρ c)
theorem v5_bias : V5 (F := Ideal) m ρ c main_v58 = shapeCast S1x128 (m ((c : Thread nD τ).loc main_arg5)) shapeCasts_S128_S1x128 :=
  (bias_after3 (W4 m ρ c)).trans (by rw [w4_arg5])

/-! ## The result -/

/-- The second launch leaves the reference's result stage, of the kernel's argument arrays, in the result buffer. -/
theorem result_eq : W6 (F := Ideal) m ρ c (Proc.devRef .tc main_v59) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 4).trans ((Cert.KernelIdeal.Output.final (V5 m ρ) c).trans ?_)
  unfold Cert.KernelIdeal.Output.outputArr
  rw [v5_hidden, v5_propagated, v5_weights2, v5_bias, row_of_reshaped, Cert.ReferenceIdeal.Layers.output_eq]

/-- Every weakly fair execution of the idealized kernel terminates, nothing faulting, with the result buffer at the
    reference's result stage of the launch contents of its six argument arrays, and those arrays unchanged. -/
theorem run : θ_run defs (onTc (τ := τ) (main (F := Ideal))) ⟨m, fun _ => 0, ρ⟩ (fun r => ∀ c : Dev nD,
      r.2.mem ((c.tc : Thread nD τ).loc main_v59) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩)
    (Cert.KernelIdeal.RunValue.run_result (F := Ideal) m ρ)

end Cert.KernelIdeal.Result

end
-- ==== Proof.lean ====
/-
  A two-layer Chebyshev graph network (order two, symmetric normalisation) with a log-softmax head, over 100000 nodes
  and 1600000 edges: a kernel that keeps the irregular gather/scatter on the host and runs the two dense layers as
  launches over twenty blocks of 5000 nodes, against the plain reference.

  With `L̂ = −D⁻¹ᐟ² A D⁻¹ᐟ²` (the degrees `D` a scatter-add of ones over the edges' source nodes, `d⁻¹ᐟ²` taken where the degree
  is positive and `0` elsewhere), both programs compute
      h   = relu (x·W₁[0] + (L̂x)·W₁[1] + b₁)
      out = log_softmax (h·W₂[0] + (L̂h)·W₂[1] + b₂)                      (row-wise, shifted by the row maximum).
  The host operations that build the index vectors, the degrees, the edge weights and the two propagations `L̂x`, `L̂h`
  are the same operations in both programs, so each of the kernel's host stretches leaves the reference's value of the
  same stage. A dense layer treats every node's row alone: the kernel's block `t` holds the rows of nodes
  `5000·t … 5000·t + 4999`, its matrix products into zero accumulators are the host's `dot_general`s (the same sums over the
  contracted axis; the change of float format before them is the identity on extended reals), its lane reductions are
  the host's reductions (the same fold of `max` from −∞ — the host's extra maximum with −∞ changes nothing — and the same
  sum, the host's started at the zero word), and the per-row terms broadcast back along the lanes are the same in the
  device's column form and the host's. So, row by row, both programs are the same two row functions, the twenty blocks
  of each launch tile its result array, and the two results are equal as extended reals, entry by entry, for ALL
  argument arrays: no law used needs finiteness, and the precondition is not opened.

  The three frames: the two kernels' are the generated frame certificates; the reference's is its run with the result
  forgotten. The idealization rewrote no operation, so `preserves` is `True`.
-/
import proofs.«130379_j67542655697471_1_alg».proof.Defs
import proofs.«130379_j67542655697471_1_alg».proof.Proof.Gen.Kernel
import proofs.«130379_j67542655697471_1_alg».proof.Proof.Gen.Kernel.Skeleton
import proofs.«130379_j67542655697471_1_alg».proof.Proof.Gen.Kernel.Launch
import proofs.«130379_j67542655697471_1_alg».proof.Proof.Gen.Kernel.Points
import proofs.«130379_j67542655697471_1_alg».proof.Proof.Gen.Kernel.Frame
import proofs.«130379_j67542655697471_1_alg».proof.Proof.Gen.KernelIdeal
import proofs.«130379_j67542655697471_1_alg».proof.Proof.Gen.KernelIdeal.Skeleton
import proofs.«130379_j67542655697471_1_alg».proof.Proof.Gen.KernelIdeal.Launch
import proofs.«130379_j67542655697471_1_alg».proof.Proof.Gen.KernelIdeal.Points
import proofs.«130379_j67542655697471_1_alg».proof.Proof.Gen.KernelIdeal.Frame
import proofs.«130379_j67542655697471_1_alg».proof.Proof.Gen.ReferenceIdeal
import proofs.«130379_j67542655697471_1_alg».proof.Proof.Gen.Pre_finite_inputs
import proofs.«130379_j67542655697471_1_alg».proof.Proof.RefRunP
import proofs.«130379_j67542655697471_1_alg».proof.Proof.RefReadP
import proofs.«130379_j67542655697471_1_alg».proof.Proof.RefValue
import proofs.«130379_j67542655697471_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- From memories agreeing on the six arguments both programs end with the result buffer at the network's output for
    those arguments — the reference's last stage, which the kernel's second launch leaves too. -/
theorem algebraic : Cert.algebraic_KernelIdeal_ReferenceIdeal := by
  intro m ρ m' ρ' _ hagree
  refine ⟨fun c => Cert.ReferenceIdeal.ReadP.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Result.run m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
